-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_arg6 : FVec F S64x32 .f32) (main_arg7 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) (main_arg6 : FVec F S64x32 .f32) (main_arg7 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1703936x1 : Shape := ⟨2, ![1703936, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1703936x64 : Shape := ⟨2, ![1703936, 64]⟩
abbrev S8192x64 : Shape := ⟨2, ![8192, 64]⟩
abbrev S8192x1 : Shape := ⟨2, ![8192, 1]⟩
abbrev S1x64 : Shape := ⟨2, ![1, 64]⟩
abbrev S64x64 : Shape := ⟨2, ![64, 64]⟩
abbrev S100000x32 : Shape := ⟨2, ![100000, 32]⟩

abbrev nBuf : Space → Nat
  | .hbm => 98
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S1700000x1, .f32⟩
  | .hbm, ⟨49, _⟩ => ⟨S_, .i32⟩
  | .hbm, ⟨50, _⟩ => ⟨S_, .f32⟩
  | .hbm, ⟨51, _⟩ => ⟨S1703936x1, .f32⟩
  | .hbm, ⟨52, _⟩ => ⟨S100000x64, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S_, .i32⟩
  | .hbm, ⟨63, _⟩ => ⟨S_, .f32⟩
  | .hbm, ⟨64, _⟩ => ⟨S1703936x64, .f32⟩
  | .hbm, ⟨65, _⟩ => ⟨S1703936x64, .f32⟩
  | .hbm, ⟨66, _⟩ => ⟨S1700000x64, .f32⟩
  | .hbm, ⟨67, _⟩ => ⟨S_, .f32⟩
  | .hbm, ⟨68, _⟩ => ⟨S100000x64, .f32⟩
  | .hbm, ⟨69, _⟩ => ⟨S1700000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S64x64, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S_, .i32⟩
  | .hbm, ⟨85, _⟩ => ⟨S_, .f32⟩
  | .hbm, ⟨86, _⟩ => ⟨S1703936x64, .f32⟩
  | .hbm, ⟨87, _⟩ => ⟨S1703936x64, .f32⟩
  | .hbm, ⟨88, _⟩ => ⟨S1700000x64, .f32⟩
  | .hbm, ⟨89, _⟩ => ⟨S_, .f32⟩
  | .hbm, ⟨90, _⟩ => ⟨S100000x64, .f32⟩
  | .hbm, ⟨91, _⟩ => ⟨S1700000x1, .i32⟩
  | .hbm, ⟨92, _⟩ => ⟨S100000x64, .f32⟩
  | .hbm, ⟨93, _⟩ => ⟨S64, .f32⟩
  | .hbm, ⟨94, _⟩ => ⟨S1x64, .f32⟩
  | .hbm, ⟨95, _⟩ => ⟨S100000x64, .f32⟩
  | .hbm, ⟨96, _⟩ => ⟨S100000x32, .f32⟩
  | .hbm, ⟨97, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S8192x64, .f32⟩
  | .local _ .vmem, ⟨6, _⟩ => ⟨S8192x64, .f32⟩
  | .local _ .vmem, ⟨7, _⟩ => ⟨S8192x1, .f32⟩
  | .local _ .vmem, ⟨8, _⟩ => ⟨S8192x1, .f32⟩
  | .local _ .vmem, ⟨9, _⟩ => ⟨S8192x64, .f32⟩
  | .local _ .vmem, ⟨10, _⟩ => ⟨S8192x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S10000x64, .f32⟩
  | .local _ .vmem, ⟨20, _⟩ => ⟨S10000x64, .f32⟩
  | .local _ .vmem, ⟨21, _⟩ => ⟨S8192x64, .f32⟩
  | .local _ .vmem, ⟨22, _⟩ => ⟨S8192x64, .f32⟩
  | .local _ .vmem, ⟨23, _⟩ => ⟨S8192x1, .f32⟩
  | .local _ .vmem, ⟨24, _⟩ => ⟨S8192x1, .f32⟩
  | .local _ .vmem, ⟨25, _⟩ => ⟨S8192x64, .f32⟩
  | .local _ .vmem, ⟨26, _⟩ => ⟨S8192x64, .f32⟩
  | .local _ .vmem, ⟨27, _⟩ => ⟨S10000x64, .f32⟩
  | .local _ .vmem, ⟨28, _⟩ => ⟨S10000x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_call1_v0 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_call2_v0 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_c_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_13 : Ref sig .tc := ⟨.hbm, 84, rfl⟩
abbrev main_call3_v0 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_14 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![208], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![208], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S1700000_S1700000x1 : S1700000.ShapeCasts S1700000x1
  pads_S1700000x1_S1703936x1_039360_000 : S1700000x1.Pads (![0, 0] : Fin 2 → Nat) ![3936, 0] ![0, 0] S1703936x1
  h_S_ : 0 < S_.numel
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  pads_S1700000x64_S1703936x64_039360_000 : S1700000x64.Pads (![0, 0] : Fin 2 → Nat) ![3936, 0] ![0, 0] S1703936x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  slices_S1703936x64_S1700000x64_0_0 : S1703936x64.Slices ![0, 0] S1700000x64
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  concatenates_S64x32_S64x32_S64x64_d1 : Shape.Concatenates [S64x32, S64x32] S64x64 1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  concatenates_S32_S32_S64_d0 : Shape.Concatenates [S32, S32] S64 0
  slices_S100000x64_S100000x32_0_0 : S100000x64.Slices ![0, 0] S100000x32
  slices_S100000x64_S100000x32_0_32 : S100000x64.Slices ![0, 32] S100000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S1703936x64.size a
  hwx1_0 : ∀ i : grid1.Coords, EltTy.bits .f32 = 32 ∨ (Rect.block (s := S1703936x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S1703936x1.size a
  hwx1_1 : ∀ i : grid1.Coords, EltTy.bits .f32 = 32 ∨ (Rect.block (s := S1703936x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S1703936x64.size a
  hwx1_2 : ∀ i : grid1.Coords, EltTy.bits .f32 = 32 ∨ (Rect.block (s := S1703936x64) S8192x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x64.size a ≤ S1703936x64.size a
  hwx4_0 : ∀ i : grid4.Coords, EltTy.bits .f32 = 32 ∨ (Rect.block (s := S1703936x64) S8192x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x1.size a ≤ S1703936x1.size a
  hwx4_1 : ∀ i : grid4.Coords, EltTy.bits .f32 = 32 ∨ (Rect.block (s := S1703936x1) S8192x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x64.size a ≤ S1703936x64.size a
  hwx4_2 : ∀ i : grid4.Coords, EltTy.bits .f32 = 32 ∨ (Rect.block (s := S1703936x64) S8192x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v57) S8192x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31) S8192x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v58) S8192x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v62) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v65) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x32, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x32, .f32⟩
  | .hbm, ⟨81, _⟩ => ⟨S1700000x1, .f32⟩
  | .hbm, ⟨82, _⟩ => ⟨S1700000x32, .f32⟩
  | .hbm, ⟨83, _⟩ => ⟨S1700000x32, .f32⟩
  | .hbm, ⟨84, _⟩ => ⟨S_, .f32⟩
  | .hbm, ⟨85, _⟩ => ⟨S100000x32, .f32⟩
  | .hbm, ⟨86, _⟩ => ⟨S1700000x1, .i32⟩
  | .hbm, ⟨87, _⟩ => ⟨S100000x32, .f32⟩
  | .hbm, ⟨88, _⟩ => ⟨S1x32, .f32⟩
  | .hbm, ⟨89, _⟩ => ⟨S100000x32, .f32⟩
  | .hbm, ⟨90, _⟩ => ⟨S100000x32, .f32⟩
  | .hbm, ⟨91, _⟩ => ⟨S100000x32, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x32, .f32⟩
  | .hbm, ⟨101, _⟩ => ⟨S1700000x1, .f32⟩
  | .hbm, ⟨102, _⟩ => ⟨S1700000x32, .f32⟩
  | .hbm, ⟨103, _⟩ => ⟨S1700000x32, .f32⟩
  | .hbm, ⟨104, _⟩ => ⟨S_, .f32⟩
  | .hbm, ⟨105, _⟩ => ⟨S100000x32, .f32⟩
  | .hbm, ⟨106, _⟩ => ⟨S1700000x1, .i32⟩
  | .hbm, ⟨107, _⟩ => ⟨S100000x32, .f32⟩
  | .hbm, ⟨108, _⟩ => ⟨S1x32, .f32⟩
  | .hbm, ⟨109, _⟩ => ⟨S100000x32, .f32⟩
  | .hbm, ⟨110, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KRun.lean ====
/-
  The kernel's run, read at the buffers the claim speaks of.

  The program is six kernel regions among stretches of host operations. Its run ends with every unscoped buffer of
  each core at the last boundary's contents: the fold of the host stretches and of the regions' write-backs over the
  launch memory. The two result buffers are two instances of that; an argument buffer is never written, so the fold
  at an argument walks back to the launch memory.
-/
import proofs.«104852_j41480794145130_2_alg».proof.Proof.FrameP

noncomputable section

namespace Cert.KernelIdeal.Val

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The first result buffer ends at the fold's contents. -/
theorem res0 (r : PUnit × MemSt nD τ sig (Elt F)) (h : ∀ c : Dev nD,
      ∀ b ∈ Pipeline.ucRefs τ sig, r.2.mem (((c : Thread nD τ)).1, b) = W18 m ρ c b) (c : Dev nD) :
    r.2.mem ((c.tc : Thread nD τ).loc main_v66) = W18 m ρ c (Proc.devRef .tc main_v66) :=
  h c _ (mem_uc main_v66 (by decide))

/-- The second result buffer ends at the fold's contents. -/
theorem res1 (r : PUnit × MemSt nD τ sig (Elt F)) (h : ∀ c : Dev nD,
      ∀ b ∈ Pipeline.ucRefs τ sig, r.2.mem (((c : Thread nD τ)).1, b) = W18 m ρ c b) (c : Dev nD) :
    r.2.mem ((c.tc : Thread nD τ).loc main_v67) = W18 m ρ c (Proc.devRef .tc main_v67) :=
  h c _ (mem_uc main_v67 (by decide))

/-- An argument buffer ends as launched (the fold at an argument walks back to the launch memory). -/
theorem kept (r : PUnit × MemSt nD τ sig (Elt F)) (h : ∀ c : Dev nD,
      ∀ b ∈ Pipeline.ucRefs τ sig, r.2.mem (((c : Thread nD τ)).1, b) = W18 m ρ c b) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨(h c _ (mem_uc main_arg0 (by decide))).trans (W18_main_arg0 m ρ c),
   (h c _ (mem_uc main_arg1 (by decide))).trans (W18_main_arg1 m ρ c),
   (h c _ (mem_uc main_arg2 (by decide))).trans (W18_main_arg2 m ρ c),
   (h c _ (mem_uc main_arg3 (by decide))).trans (W18_main_arg3 m ρ c),
   (h c _ (mem_uc main_arg4 (by decide))).trans (W18_main_arg4 m ρ c),
   (h c _ (mem_uc main_arg5 (by decide))).trans (W18_main_arg5 m ρ c),
   (h c _ (mem_uc main_arg6 (by decide))).trans (W18_main_arg6 m ρ c),
   (h c _ (mem_uc main_arg7 (by decide))).trans (W18_main_arg7 m ρ c)⟩

end Cert.KernelIdeal.Val

end
-- ==== Proof.Keep.lean ====
/-
  Buffers carried across the program's boundaries.

  The buffer contents at the program's boundaries are a fold: a stretch of host operations changes only the buffers
  its operations write, and a kernel region changes only its result array (its operands' arrays end as entered, and
  every other buffer is untouched). So a buffer written once — the edge endpoints, the padded normalisation column,
  an argument — is found unchanged at every later boundary up to its next writer. These are the instances the value
  proof needs, each by walking the fold back one boundary at a time.
-/
import proofs.«104852_j41480794145130_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- Across one stretch of host operations none of which writes the buffer. -/
macro "host_keep " ops:ident : tactic =>
  `(tactic| exact StableHlo.after_of_forall_not_mem (b := Proc.devRef .tc _) _ _ (List.forall_iff_forall_mem.mp (by
      simp only [$ops:ident, List.Forall, StableHlo.nullary_writes, StableHlo.unary_writes,
        StableHlo.binary_writes, StableHlo.ternary_writes, StableHlo.quaternary_writes, StableHlo.reshape_writes,
        StableHlo.binaryIndexed_writes, Finset.mem_singleton]
      repeat' apply And.intro
      all_goals exact StableHlo.devRef_ne_of_ne (by decide))))

/-! ### The edge endpoints (written by the first stretch) -/
/-- The sources at region 0's exit. -/
theorem src_at5 (c : Dev nD) : W5 m ρ c (Proc.devRef .tc main_v5) = W4 m ρ c (Proc.devRef .tc main_v5) :=
  calc W5 m ρ c (Proc.devRef .tc main_v5)
    _ = W4 m ρ c (Proc.devRef .tc main_v5) := W5_of_ne m ρ c main_v5 (by decide)
/-- The sources at region 3's exit. -/
theorem src_at12 (c : Dev nD) : W12 m ρ c (Proc.devRef .tc main_v5) = W4 m ρ c (Proc.devRef .tc main_v5) :=
  calc W12 m ρ c (Proc.devRef .tc main_v5)
    _ = W11 m ρ c (Proc.devRef .tc main_v5) := W12_of_ne m ρ c main_v5 (by decide)
    _ = W10 m ρ c (Proc.devRef .tc main_v5) := by host_keep hostOps3
    _ = W9 m ρ c (Proc.devRef .tc main_v5) := W10_of_ne m ρ c main_v5 (by decide)
    _ = W8 m ρ c (Proc.devRef .tc main_v5) := by host_keep hostOps2
    _ = W7 m ρ c (Proc.devRef .tc main_v5) := W8_of_ne m ρ c main_v5 (by decide)
    _ = W6 m ρ c (Proc.devRef .tc main_v5) := by host_keep hostOps1_1
    _ = W5 m ρ c (Proc.devRef .tc main_v5) := by host_keep hostOps1
    _ = W4 m ρ c (Proc.devRef .tc main_v5) := W5_of_ne m ρ c main_v5 (by decide)
/-- The destinations at region 1's exit. -/
theorem dst_at8 (c : Dev nD) : W8 m ρ c (Proc.devRef .tc main_v6) = W4 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := by host_keep hostOps1_1
    _ = W5 m ρ c (Proc.devRef .tc main_v6) := by host_keep hostOps1
    _ = W4 m ρ c (Proc.devRef .tc main_v6) := W5_of_ne m ρ c main_v6 (by decide)
/-- The destinations at region 4's exit. -/
theorem dst_at15 (c : Dev nD) : W15 m ρ c (Proc.devRef .tc main_v6) = W4 m ρ c (Proc.devRef .tc main_v6) :=
  calc W15 m ρ c (Proc.devRef .tc main_v6)
    _ = W14 m ρ c (Proc.devRef .tc main_v6) := W15_of_ne m ρ c main_v6 (by decide)
    _ = W13 m ρ c (Proc.devRef .tc main_v6) := by host_keep hostOps4_1
    _ = W12 m ρ c (Proc.devRef .tc main_v6) := by host_keep hostOps4
    _ = W11 m ρ c (Proc.devRef .tc main_v6) := W12_of_ne m ρ c main_v6 (by decide)
    _ = W10 m ρ c (Proc.devRef .tc main_v6) := by host_keep hostOps3
    _ = W9 m ρ c (Proc.devRef .tc main_v6) := W10_of_ne m ρ c main_v6 (by decide)
    _ = W8 m ρ c (Proc.devRef .tc main_v6) := by host_keep hostOps2
    _ = W7 m ρ c (Proc.devRef .tc main_v6) := W8_of_ne m ρ c main_v6 (by decide)
    _ = W6 m ρ c (Proc.devRef .tc main_v6) := by host_keep hostOps1_1
    _ = W5 m ρ c (Proc.devRef .tc main_v6) := by host_keep hostOps1
    _ = W4 m ρ c (Proc.devRef .tc main_v6) := W5_of_ne m ρ c main_v6 (by decide)

/-! ### The padded normalisation column (written before region 0, read by regions 1 and 4) -/
/-- The column at region 1's entry. -/
theorem nrm_at7 (c : Dev nD) : W7 m ρ c (Proc.devRef .tc main_v31) = W4 m ρ c (Proc.devRef .tc main_v31) :=
  calc W7 m ρ c (Proc.devRef .tc main_v31)
    _ = W6 m ρ c (Proc.devRef .tc main_v31) := by host_keep hostOps1_1
    _ = W5 m ρ c (Proc.devRef .tc main_v31) := by host_keep hostOps1
    _ = W4 m ρ c (Proc.devRef .tc main_v31) := W5_of_ne m ρ c main_v31 (by decide)
/-- The column at region 4's entry. -/
theorem nrm_at14 (c : Dev nD) : W14 m ρ c (Proc.devRef .tc main_v31) = W4 m ρ c (Proc.devRef .tc main_v31) :=
  calc W14 m ρ c (Proc.devRef .tc main_v31)
    _ = W13 m ρ c (Proc.devRef .tc main_v31) := by host_keep hostOps4_1
    _ = W12 m ρ c (Proc.devRef .tc main_v31) := by host_keep hostOps4
    _ = W11 m ρ c (Proc.devRef .tc main_v31) := W12_of_ne m ρ c main_v31 (by decide)
    _ = W10 m ρ c (Proc.devRef .tc main_v31) := by host_keep hostOps3
    _ = W9 m ρ c (Proc.devRef .tc main_v31) := W10_of_ne m ρ c main_v31 (by decide)
    _ = W8 m ρ c (Proc.devRef .tc main_v31) := by host_keep hostOps2
    _ = W7 m ρ c (Proc.devRef .tc main_v31) :=
        (W8_arr m ρ c 1).trans (((dat1 (V7 m ρ) c).arrAt_in 1 rfl _).trans (A_eq1 (V7 m ρ) c 1))
    _ = W6 m ρ c (Proc.devRef .tc main_v31) := by host_keep hostOps1_1
    _ = W5 m ρ c (Proc.devRef .tc main_v31) := by host_keep hostOps1
    _ = W4 m ρ c (Proc.devRef .tc main_v31) := W5_of_ne m ρ c main_v31 (by decide)

/-! ### The arguments, where the program reads them -/
/-- The features at region 0's entry. -/
theorem arg0_at4 (c : Dev nD) : W4 m ρ c (Proc.devRef .tc main_arg0) = m ((c : Thread nD τ).loc main_arg0) :=
  calc W4 m ρ c (Proc.devRef .tc main_arg0)
    _ = W3 m ρ c (Proc.devRef .tc main_arg0) := by host_keep hostOps0_3
    _ = W2 m ρ c (Proc.devRef .tc main_arg0) := by host_keep hostOps0_2
    _ = W1 m ρ c (Proc.devRef .tc main_arg0) := by host_keep hostOps0_1
    _ = W0 m ρ c (Proc.devRef .tc main_arg0) := by host_keep hostOps0
    _ = m ((c : Thread nD τ).loc main_arg0) := rfl
/-- The first weights at region 0's entry. -/
theorem arg2_at4 (c : Dev nD) : W4 m ρ c (Proc.devRef .tc main_arg2) = m ((c : Thread nD τ).loc main_arg2) :=
  calc W4 m ρ c (Proc.devRef .tc main_arg2)
    _ = W3 m ρ c (Proc.devRef .tc main_arg2) := by host_keep hostOps0_3
    _ = W2 m ρ c (Proc.devRef .tc main_arg2) := by host_keep hostOps0_2
    _ = W1 m ρ c (Proc.devRef .tc main_arg2) := by host_keep hostOps0_1
    _ = W0 m ρ c (Proc.devRef .tc main_arg2) := by host_keep hostOps0
    _ = m ((c : Thread nD τ).loc main_arg2) := rfl
/-- The first bias at region 1's exit. -/
theorem arg3_at8 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := by host_keep hostOps1_1
    _ = W5 m ρ c (Proc.devRef .tc main_arg3) := by host_keep hostOps1
    _ = W4 m ρ c (Proc.devRef .tc main_arg3) := W5_of_ne m ρ c main_arg3 (by decide)
    _ = W3 m ρ c (Proc.devRef .tc main_arg3) := by host_keep hostOps0_3
    _ = W2 m ρ c (Proc.devRef .tc main_arg3) := by host_keep hostOps0_2
    _ = W1 m ρ c (Proc.devRef .tc main_arg3) := by host_keep hostOps0_1
    _ = W0 m ρ c (Proc.devRef .tc main_arg3) := by host_keep hostOps0
    _ = m ((c : Thread nD τ).loc main_arg3) := rfl
/-- The mean head's weights at region 2's exit. -/
theorem arg4_at10 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := by host_keep hostOps2
    _ = W7 m ρ c (Proc.devRef .tc main_arg4) := W8_of_ne m ρ c main_arg4 (by decide)
    _ = W6 m ρ c (Proc.devRef .tc main_arg4) := by host_keep hostOps1_1
    _ = W5 m ρ c (Proc.devRef .tc main_arg4) := by host_keep hostOps1
    _ = W4 m ρ c (Proc.devRef .tc main_arg4) := W5_of_ne m ρ c main_arg4 (by decide)
    _ = W3 m ρ c (Proc.devRef .tc main_arg4) := by host_keep hostOps0_3
    _ = W2 m ρ c (Proc.devRef .tc main_arg4) := by host_keep hostOps0_2
    _ = W1 m ρ c (Proc.devRef .tc main_arg4) := by host_keep hostOps0_1
    _ = W0 m ρ c (Proc.devRef .tc main_arg4) := by host_keep hostOps0
    _ = m ((c : Thread nD τ).loc main_arg4) := rfl
/-- The log head's weights at region 2's exit. -/
theorem arg6_at10 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := by host_keep hostOps2
    _ = W7 m ρ c (Proc.devRef .tc main_arg6) := W8_of_ne m ρ c main_arg6 (by decide)
    _ = W6 m ρ c (Proc.devRef .tc main_arg6) := by host_keep hostOps1_1
    _ = W5 m ρ c (Proc.devRef .tc main_arg6) := by host_keep hostOps1
    _ = W4 m ρ c (Proc.devRef .tc main_arg6) := W5_of_ne m ρ c main_arg6 (by decide)
    _ = W3 m ρ c (Proc.devRef .tc main_arg6) := by host_keep hostOps0_3
    _ = W2 m ρ c (Proc.devRef .tc main_arg6) := by host_keep hostOps0_2
    _ = W1 m ρ c (Proc.devRef .tc main_arg6) := by host_keep hostOps0_1
    _ = W0 m ρ c (Proc.devRef .tc main_arg6) := by host_keep hostOps0
    _ = m ((c : Thread nD τ).loc main_arg6) := rfl
/-- The mean head's bias at region 4's exit. -/
theorem arg5_at15 (c : Dev nD) : W15 m ρ c (Proc.devRef .tc main_arg5) = m ((c : Thread nD τ).loc main_arg5) :=
  calc W15 m ρ c (Proc.devRef .tc main_arg5)
    _ = W14 m ρ c (Proc.devRef .tc main_arg5) := W15_of_ne m ρ c main_arg5 (by decide)
    _ = W13 m ρ c (Proc.devRef .tc main_arg5) := by host_keep hostOps4_1
    _ = W12 m ρ c (Proc.devRef .tc main_arg5) := by host_keep hostOps4
    _ = W11 m ρ c (Proc.devRef .tc main_arg5) := W12_of_ne m ρ c main_arg5 (by decide)
    _ = W10 m ρ c (Proc.devRef .tc main_arg5) := by host_keep hostOps3
    _ = W9 m ρ c (Proc.devRef .tc main_arg5) := W10_of_ne m ρ c main_arg5 (by decide)
    _ = W8 m ρ c (Proc.devRef .tc main_arg5) := by host_keep hostOps2
    _ = W7 m ρ c (Proc.devRef .tc main_arg5) := W8_of_ne m ρ c main_arg5 (by decide)
    _ = W6 m ρ c (Proc.devRef .tc main_arg5) := by host_keep hostOps1_1
    _ = W5 m ρ c (Proc.devRef .tc main_arg5) := by host_keep hostOps1
    _ = W4 m ρ c (Proc.devRef .tc main_arg5) := W5_of_ne m ρ c main_arg5 (by decide)
    _ = W3 m ρ c (Proc.devRef .tc main_arg5) := by host_keep hostOps0_3
    _ = W2 m ρ c (Proc.devRef .tc main_arg5) := by host_keep hostOps0_2
    _ = W1 m ρ c (Proc.devRef .tc main_arg5) := by host_keep hostOps0_1
    _ = W0 m ρ c (Proc.devRef .tc main_arg5) := by host_keep hostOps0
    _ = m ((c : Thread nD τ).loc main_arg5) := rfl
/-- The log head's bias at region 4's exit. -/
theorem arg7_at15 (c : Dev nD) : W15 m ρ c (Proc.devRef .tc main_arg7) = m ((c : Thread nD τ).loc main_arg7) :=
  calc W15 m ρ c (Proc.devRef .tc main_arg7)
    _ = W14 m ρ c (Proc.devRef .tc main_arg7) := W15_of_ne m ρ c main_arg7 (by decide)
    _ = W13 m ρ c (Proc.devRef .tc main_arg7) := by host_keep hostOps4_1
    _ = W12 m ρ c (Proc.devRef .tc main_arg7) := by host_keep hostOps4
    _ = W11 m ρ c (Proc.devRef .tc main_arg7) := W12_of_ne m ρ c main_arg7 (by decide)
    _ = W10 m ρ c (Proc.devRef .tc main_arg7) := by host_keep hostOps3
    _ = W9 m ρ c (Proc.devRef .tc main_arg7) := W10_of_ne m ρ c main_arg7 (by decide)
    _ = W8 m ρ c (Proc.devRef .tc main_arg7) := by host_keep hostOps2
    _ = W7 m ρ c (Proc.devRef .tc main_arg7) := W8_of_ne m ρ c main_arg7 (by decide)
    _ = W6 m ρ c (Proc.devRef .tc main_arg7) := by host_keep hostOps1_1
    _ = W5 m ρ c (Proc.devRef .tc main_arg7) := by host_keep hostOps1
    _ = W4 m ρ c (Proc.devRef .tc main_arg7) := W5_of_ne m ρ c main_arg7 (by decide)
    _ = W3 m ρ c (Proc.devRef .tc main_arg7) := by host_keep hostOps0_3
    _ = W2 m ρ c (Proc.devRef .tc main_arg7) := by host_keep hostOps0_2
    _ = W1 m ρ c (Proc.devRef .tc main_arg7) := by host_keep hostOps0_1
    _ = W0 m ρ c (Proc.devRef .tc main_arg7) := by host_keep hostOps0
    _ = m ((c : Thread nD τ).loc main_arg7) := rfl

/-! ### The hidden layer across the one stretch between region 2 and region 3 -/
/-- The hidden layer at region 3's entry. -/
theorem hid_at11 (c : Dev nD) : W11 m ρ c (Proc.devRef .tc main_v47) = W10 m ρ c (Proc.devRef .tc main_v47) :=
  calc W11 m ρ c (Proc.devRef .tc main_v47)
    _ = W10 m ρ c (Proc.devRef .tc main_v47) := by host_keep hostOps3

end Cert.KernelIdeal.Val

end
-- ==== Proof.KHost.lean ====
/-
  What each stretch of host operations between the kernel regions leaves, from ANY contents `Vp` of the buffers
  before the stretch. Each statement is the stretch's operations composed on the buffers it reads:

    * before region 0: the edge endpoints with the self loops appended (`ends`), the degrees, their inverse square
      roots where the degree is positive, the product of the two endpoint values per edge, as a column padded with
      zeros to a multiple of 8192 rows (`normColumn`);
    * before regions 1 and 4: the rows of a table gathered at the source endpoints, padded with zero rows likewise;
    * before regions 2 and 5: the first 1700000 rows of the scaled rows summed into the destination endpoints'
      rows, and the bias as a one-row matrix;
    * before region 3: the two heads' weight matrices side by side;
    * at the end: the two halves of the columns of the last result.

  A negative node number counts from the end (`startCol`), as the indexing of both programs spells it.
-/
import proofs.«104852_j41480794145130_2_alg».proof.Proof.Gen.KernelIdeal.Frame
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable {F : FTy → Type} [FloatOps F]

/-- Row `r` (0 or 1) of the edge list with the node numbers 0 … 99999 appended: the sources (row 0) or the
    destinations (row 1) of the edges and of the self loops. -/
def ends0 (ei : (⟨S2x1600000, .i32⟩ : BufTy).Contents (Elt F)) : (⟨S1700000, .i32⟩ : BufTy).Contents (Elt F) :=
  concatenate S1700000 0 [⟨S1600000, shapeCast S1600000 (extractStridedSlice S1x1600000 ![0, 0] ei slices_S2x1600000_S1x1600000_0_0) shapeCasts_S1x1600000_S1600000⟩,
    ⟨S100000, iotaInDim S100000 32 0⟩] concatenates_S1600000_S100000_S1700000_d0
def ends1 (ei : (⟨S2x1600000, .i32⟩ : BufTy).Contents (Elt F)) : (⟨S1700000, .i32⟩ : BufTy).Contents (Elt F) :=
  concatenate S1700000 0 [⟨S1600000, shapeCast S1600000 (extractStridedSlice S1x1600000 ![1, 0] ei slices_S2x1600000_S1x1600000_1_0) shapeCasts_S1x1600000_S1600000⟩,
    ⟨S100000, iotaInDim S100000 32 0⟩] concatenates_S1600000_S100000_S1700000_d0

/-- The start-index column of a gather at a vector of node numbers: a negative number has 100000 added. -/
def startCol (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The inverse square root of the in-degree (counting the self loop), zero where the degree is not positive. -/
def invSqrtDeg (ei : (⟨S2x1600000, .i32⟩ : BufTy).Contents (Elt F)) : (⟨S100000, .f32⟩ : BufTy).Contents (Elt F) :=
  let deg : (⟨S100000, .f32⟩ : BufTy).Contents (Elt F) :=
    Host.scatterAdd scatter_S100000_S1700000x1_S1700000_n_0_0_1 (broadcastInDim S100000 ![] bcast_S_S100000 (constant S_ .f32 0x00000000#32))
      (broadcastInDim S1700000x1 ![0] bcast_S1700000_S1700000x1_0 (ends1 ei))
      (broadcastInDim S1700000 ![] bcast_S_S1700000 (constant S_ .f32 0x3F800000#32))
  select (cmpf (F := F) .ogt deg (broadcastInDim S100000 ![] bcast_S_S100000 (constant S_ .f32 0x00000000#32))) (Host.rsqrt deg)
    (broadcastInDim S100000 ![] bcast_S_S100000 (id (constant S_ .f32 0x00000000#32)))

/-- Per edge, the product of the two endpoints' inverse square root degrees. -/
def edgeNorm (ei : (⟨S2x1600000, .i32⟩ : BufTy).Contents (Elt F)) : (⟨S1700000, .f32⟩ : BufTy).Contents (Elt F) :=
  mulf (Host.gather gather_S100000_S1700000x1_S1700000_n_0_n_n_0_1_1 (invSqrtDeg ei) (startCol (ends0 ei)))
    (Host.gather gather_S100000_S1700000x1_S1700000_n_0_n_n_0_1_1 (invSqrtDeg ei) (startCol (ends1 ei)))

/-- The same as a column, padded with zeros to 1703936 rows. -/
def normColumn (ei : (⟨S2x1600000, .i32⟩ : BufTy).Contents (Elt F)) : (⟨S1703936x1, .f32⟩ : BufTy).Contents (Elt F) :=
  pad S1703936x1 ![0, 0] ![3936, 0] ![0, 0] (shapeCast S1700000x1 (edgeNorm ei) shapeCasts_S1700000_S1700000x1)
    (sitofp .f32 (constantI S_ 32 0#32)) pads_S1700000x1_S1703936x1_039360_000 h_S_

/-- The rows of a [100000, 64] table at the source endpoints `s`, padded with zero rows to 1703936 rows. -/
def gatheredRows (T : (⟨S100000x64, .f32⟩ : BufTy).Contents (Elt F)) (s : (⟨S1700000, .i32⟩ : BufTy).Contents (Elt F)) :
    (⟨S1703936x64, .f32⟩ : BufTy).Contents (Elt F) :=
  pad S1703936x64 ![0, 0] ![3936, 0] ![0, 0] (Host.gather gather_S100000x64_S1700000x1_S1700000x64_1_0_n_n_0_1_164 T (startCol s))
    (sitofp .f32 (constantI S_ 32 0#32)) pads_S1700000x64_S1703936x64_039360_000 h_S_

/-- The first 1700000 rows of `M` summed into the rows the destination endpoints `d` name, from zero. -/
def summedRows (M : (⟨S1703936x64, .f32⟩ : BufTy).Contents (Elt F)) (d : (⟨S1700000, .i32⟩ : BufTy).Contents (Elt F)) :
    (⟨S100000x64, .f32⟩ : BufTy).Contents (Elt F) :=
  Host.scatterAdd scatter_S100000x64_S1700000x1_S1700000x64_1_0_0_1 (broadcastInDim S100000x64 ![] bcast_S_S100000x64 (constant S_ .f32 0x00000000#32))
    (broadcastInDim S1700000x1 ![0] bcast_S1700000_S1700000x1_0 d)
    (extractStridedSlice S1700000x64 ![0, 0] M slices_S1703936x64_S1700000x64_0_0)

variable (Vp : Valuation τ sig (Elt F))

/-! ### Before region 0 -/

theorem ends0_read : StableHlo.after hostOps0_3 (StableHlo.after hostOps0_2 (StableHlo.after hostOps0_1 (StableHlo.after hostOps0 Vp)))
    (Proc.devRef .tc main_v5) = ends0 (Vp (Proc.devRef .tc main_arg1)) := by
  simp only [hostOps0, hostOps0_1, hostOps0_2, hostOps0_3]
  after_results
  rfl

theorem ends1_read : StableHlo.after hostOps0_3 (StableHlo.after hostOps0_2 (StableHlo.after hostOps0_1 (StableHlo.after hostOps0 Vp)))
    (Proc.devRef .tc main_v6) = ends1 (Vp (Proc.devRef .tc main_arg1)) := by
  simp only [hostOps0, hostOps0_1, hostOps0_2, hostOps0_3]
  after_results
  rfl

set_option maxHeartbeats 8000000 in
theorem normColumn_read : StableHlo.after hostOps0_3 (StableHlo.after hostOps0_2 (StableHlo.after hostOps0_1 (StableHlo.after hostOps0 Vp)))
    (Proc.devRef .tc main_v31) = normColumn (Vp (Proc.devRef .tc main_arg1)) := by
  simp only [hostOps0, hostOps0_1, hostOps0_2, hostOps0_3]
  after_results_simp
  rfl

/-! ### Before regions 1 and 4 -/

theorem gathered1_read : StableHlo.after hostOps1_1 (StableHlo.after hostOps1 Vp) (Proc.devRef .tc main_v40)
    = gatheredRows (Vp (Proc.devRef .tc main_v32)) (Vp (Proc.devRef .tc main_v5)) := by
  simp only [hostOps1, hostOps1_1]
  after_results
  rfl

theorem gathered4_read : StableHlo.after hostOps4_1 (StableHlo.after hostOps4 Vp) (Proc.devRef .tc main_v57)
    = gatheredRows (Vp (Proc.devRef .tc main_v49)) (Vp (Proc.devRef .tc main_v5)) := by
  simp only [hostOps4, hostOps4_1]
  after_results
  rfl

/-! ### Before regions 2 and 5 -/

theorem summed2_read : StableHlo.after hostOps2 Vp (Proc.devRef .tc main_v45)
    = summedRows (Vp (Proc.devRef .tc main_v41)) (Vp (Proc.devRef .tc main_v6)) := by
  simp only [hostOps2]
  after_results
  rfl

theorem biasRow2_read : StableHlo.after hostOps2 Vp (Proc.devRef .tc main_v46)
    = shapeCast S1x64 (Vp (Proc.devRef .tc main_arg3)) shapeCasts_S64_S1x64 := by
  simp only [hostOps2]
  after_results
  rfl

theorem summed5_read : StableHlo.after hostOps5 Vp (Proc.devRef .tc main_v62)
    = summedRows (Vp (Proc.devRef .tc main_v58)) (Vp (Proc.devRef .tc main_v6)) := by
  simp only [hostOps5]
  after_results
  rfl

theorem biasRow5_read : StableHlo.after hostOps5 Vp (Proc.devRef .tc main_v64)
    = shapeCast S1x64 (concatenate S64 0 [⟨S32, Vp (Proc.devRef .tc main_arg5)⟩, ⟨S32, Vp (Proc.devRef .tc main_arg7)⟩] concatenates_S32_S32_S64_d0)
        shapeCasts_S64_S1x64 := by
  simp only [hostOps5]
  after_results
  rfl

/-! ### Before region 3 -/

theorem weights3_read : StableHlo.after hostOps3 Vp (Proc.devRef .tc main_v48)
    = concatenate S64x64 1 [⟨S64x32, Vp (Proc.devRef .tc main_arg4)⟩, ⟨S64x32, Vp (Proc.devRef .tc main_arg6)⟩] concatenates_S64x32_S64x32_S64x64_d1 := by
  simp only [hostOps3]
  after_results

/-! ### At the end -/

theorem mean_read : StableHlo.after hostOps6 Vp (Proc.devRef .tc main_v66)
    = extractStridedSlice S100000x32 ![0, 0] (Vp (Proc.devRef .tc main_v65)) slices_S100000x64_S100000x32_0_0 := by
  simp only [hostOps6]
  after_results

theorem logstd_read : StableHlo.after hostOps6 Vp (Proc.devRef .tc main_v67)
    = extractStridedSlice S100000x32 ![0, 32] (Vp (Proc.devRef .tc main_v65)) slices_S100000x64_S100000x32_0_32 := by
  simp only [hostOps6]
  after_results

end Cert.KernelIdeal.Val

end
-- ==== Proof.LibLayoutCol.lean ====
/-
  Two layout operations read at an index written by coordinates, for a column kept after a reduction along the
  rows' second axis: a vector of length a viewed as an [a, 1] column, and an [a, 1] column repeated along b columns.
  They complete the leading-unit-axis forms of the library's ValueLayout file.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.RegScale.lean ====
/-
  The two scale regions (regions 1 and 4): each row of a [1703936, 64] array multiplied by the matching entry of a
  [1703936, 1] column, 8192 rows per grid point. What each point writes back is a block of ONE whole-array function,
  and the 208 blocks tile the result, so after the region the result array is that function of the operand arrays.
-/
import proofs.«104852_j41480794145130_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«104852_j41480794145130_2_alg».proof.Proof.LibLayoutCol
set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

private theorem hz2 : (![0, 0] : Fin 2 → Nat) = fun _ => 0 := funext fun a => by fin_cases a <;> rfl

/-- Every row of `A` multiplied by the row's entry of the column `B`. -/
def scaleRows (A : FVec Ideal S1703936x64 .f32) (B : FVec Ideal S1703936x1 .f32) : FVec Ideal S1703936x64 .f32 :=
  fun i => A i * B (ix2 (i 0) (0 : Fin 1))

/-! ## Region 1: rows scaled by a column

The grid has 208 points; point `t` takes rows `8192 t … 8192 t + 8191` of the `[1703936, 64]` operand and of the
`[1703936, 1]` column, multiplies each row by its column entry, and writes the rows back to the same place of the
result. The blocks tile the result, so the result array is `scaleRows` of the two operand arrays. -/

/-- The body's value at an entry: the row entry times the row's column entry. -/
theorem pay1 (x0 : FVec Ideal S8192x64 .f32) (x1 : FVec Ideal S8192x1 .f32) (p : Fin 8192) (q : Fin 64) :
    k1_pay1 (F := Ideal) x0 x1 (ix2 p q) = x0 (ix2 p q) * x1 (ix2 p (0 : Fin 1)) := by
  unfold k1_pay1
  show (shapeCast S8192x64 x0 shapeCasts_S8192x64_S8192x64 (ix2 p q) : EReal)
    * broadcastTo S8192x64 (shapeCast S8192x1 x1 shapeCasts_S8192x1_S8192x1) broadcasts_S8192x1_S8192x64 (ix2 p q) = _
  rw [shapeCast_self, shapeCast_self, broadcastTo_a1_ab_apply]

/-- The index maps: every window's block index at point `t` is `(t, 0)`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the scaled rows of the arrays as the region finds them. -/
theorem flushed1_eq (c : Dev nD) (t : Fin cfg1.N) :
    (dat1 V c).flushed 2 t = ((cfg1.win 2).blk t).view.read (Elt Ideal)
      (scaleRows (V c (Pipeline.arrRef spec1 0)) (V c (Pipeline.arrRef spec1 1))) := by
  show (cfg1.win 2).cut (grid1.coords t) ((dat1 V c).after 2 t) = _
  rw [after1_2]
  unfold out1_2
  rw [View.canon_unit_zero hz2]
  simp only [View.ld_unit_zero (S := S8192x64) hz2, View.ld_unit_zero (S := S8192x1) hz2]
  obtain ⟨e0, e1, e2, e3, e4, e5⟩ := idx1 t
  funext j
  obtain ⟨p, q, rfl⟩ : ∃ (p : Fin 8192) (q : Fin 64), j = ix2 p q := ⟨j 0, j 1, eq_ix2 j⟩
  refine (pay1 _ _ p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 8192 + 1 * p.val = win1_2.index t (0 : Fin 2) * 8192 + 1 * p.val; omega
    | ⟨1, _⟩ => show win1_0.index t (1 : Fin 2) * 64 + 1 * q.val = win1_2.index t (1 : Fin 2) * 64 + 1 * q.val; omega
  have h1 : ((cfg1.win 1).blk t).view.emb (ix2 p (0 : Fin 1))
      = ix2 ((((cfg1.win 2).blk t).view.emb (ix2 p q)) 0) (0 : Fin 1) := by
    funext a; apply Fin.ext
    match a with
    | ⟨0, _⟩ => show win1_1.index t (0 : Fin 2) * 8192 + 1 * p.val = win1_2.index t (0 : Fin 2) * 8192 + 1 * p.val; omega
    | ⟨1, _⟩ => show win1_1.index t (1 : Fin 2) * 1 + 1 * 0 = 0; omega
  exact congrArg₂ (fun a b : EReal => a * b) (congrArg (V c main_v40) h0) (congrArg (V c main_v31) h1)

/-- An index of the result array is in point `t`'s block iff each coordinate is in the block's range on its axis. -/
theorem mem_blk1 (t : Fin cfg1.N) (i : S1703936x64.Idx) :
    i ∈ ((cfg1.win 2).blk t).view.set ↔ ∀ a : Fin 2, win1_2.index t a * S8192x64.size a ≤ (i a).val
      ∧ (i a).val < win1_2.index t a * S8192x64.size a + S8192x64.size a := by
  show i ∈ ((View.whole main_v41).slice (win1_2.rect t)).set ↔ _
  rw [View.set_slice_whole, Rect.mem_set_unit]
  exact Iff.rfl

/-- Row `r` of the result lies in the block of point `r / 8192`. -/
theorem cover1 (i : S1703936x64.Idx) :
    ∃ t : Fin cfg1.N, (cfg1.win 2).flush t = true ∧ i ∈ ((cfg1.win 2).blk t).view.set := by
  have hi0 : (i 0).val < 1703936 := (i 0).isLt
  have hi1 : (i 1).val < 64 := (i 1).isLt
  have hN : grid1.N = 208 := N_1
  let t : Fin cfg1.N := ⟨(i 0).val / 8192, by show (i 0).val / 8192 < grid1.N; rw [hN]; omega⟩
  obtain ⟨-, -, -, -, e4, e5⟩ := idx1 t
  have e4' : win1_2.index t (0 : Fin 2) = (i 0).val / 8192 := e4
  refine ⟨t, flush1_2 t, ?_⟩
  rw [mem_blk1]
  intro a
  match a with
  | ⟨0, _⟩ =>
    show win1_2.index t (0 : Fin 2) * 8192 ≤ (i 0).val ∧ (i 0).val < win1_2.index t (0 : Fin 2) * 8192 + 8192
    omega
  | ⟨1, _⟩ =>
    show win1_2.index t (1 : Fin 2) * 64 ≤ (i 1).val ∧ (i 1).val < win1_2.index t (1 : Fin 2) * 64 + 64
    omega

/-- The result array after region 1: the operand's rows scaled by the column, as the region finds them. -/
theorem final1 (c : Dev nD) : (dat1 V c).arrAt 2 cfg1.N
    = scaleRows (V c (Pipeline.arrRef spec1 0)) (V c (Pipeline.arrRef spec1 1)) :=
  (dat1 V c).arrAt_eq_of_cover 2 _ (fun t _ => flushed1_eq V c t) (cover1)

/-! ## Region 4: rows scaled by a column

The grid has 208 points; point `t` takes rows `8192 t … 8192 t + 8191` of the `[1703936, 64]` operand and of the
`[1703936, 1]` column, multiplies each row by its column entry, and writes the rows back to the same place of the
result. The blocks tile the result, so the result array is `scaleRows` of the two operand arrays. -/

/-- The body's value at an entry: the row entry times the row's column entry. -/
theorem pay4 (x0 : FVec Ideal S8192x64 .f32) (x1 : FVec Ideal S8192x1 .f32) (p : Fin 8192) (q : Fin 64) :
    k4_pay1 (F := Ideal) x0 x1 (ix2 p q) = x0 (ix2 p q) * x1 (ix2 p (0 : Fin 1)) := by
  unfold k4_pay1
  show (shapeCast S8192x64 x0 shapeCasts_S8192x64_S8192x64 (ix2 p q) : EReal)
    * broadcastTo S8192x64 (shapeCast S8192x1 x1 shapeCasts_S8192x1_S8192x1) broadcasts_S8192x1_S8192x64 (ix2 p q) = _
  rw [shapeCast_self, shapeCast_self, broadcastTo_a1_ab_apply]

/-- The index maps: every window's block index at point `t` is `(t, 0)`. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the scaled rows of the arrays as the region finds them. -/
theorem flushed4_eq (c : Dev nD) (t : Fin cfg4.N) :
    (dat4 V c).flushed 2 t = ((cfg4.win 2).blk t).view.read (Elt Ideal)
      (scaleRows (V c (Pipeline.arrRef spec4 0)) (V c (Pipeline.arrRef spec4 1))) := by
  show (cfg4.win 2).cut (grid4.coords t) ((dat4 V c).after 2 t) = _
  rw [after4_2]
  unfold out4_2
  rw [View.canon_unit_zero hz2]
  simp only [View.ld_unit_zero (S := S8192x64) hz2, View.ld_unit_zero (S := S8192x1) hz2]
  obtain ⟨e0, e1, e2, e3, e4, e5⟩ := idx4 t
  funext j
  obtain ⟨p, q, rfl⟩ : ∃ (p : Fin 8192) (q : Fin 64), j = ix2 p q := ⟨j 0, j 1, eq_ix2 j⟩
  refine (pay4 _ _ p q).trans ?_
  have h0 : ((cfg4.win 0).blk t).view.emb (ix2 p q) = ((cfg4.win 2).blk t).view.emb (ix2 p q) := by
    funext a; apply Fin.ext
    match a with
    | ⟨0, _⟩ => show win4_0.index t (0 : Fin 2) * 8192 + 1 * p.val = win4_2.index t (0 : Fin 2) * 8192 + 1 * p.val; omega
    | ⟨1, _⟩ => show win4_0.index t (1 : Fin 2) * 64 + 1 * q.val = win4_2.index t (1 : Fin 2) * 64 + 1 * q.val; omega
  have h1 : ((cfg4.win 1).blk t).view.emb (ix2 p (0 : Fin 1))
      = ix2 ((((cfg4.win 2).blk t).view.emb (ix2 p q)) 0) (0 : Fin 1) := by
    funext a; apply Fin.ext
    match a with
    | ⟨0, _⟩ => show win4_1.index t (0 : Fin 2) * 8192 + 1 * p.val = win4_2.index t (0 : Fin 2) * 8192 + 1 * p.val; omega
    | ⟨1, _⟩ => show win4_1.index t (1 : Fin 2) * 1 + 1 * 0 = 0; omega
  exact congrArg₂ (fun a b : EReal => a * b) (congrArg (V c main_v57) h0) (congrArg (V c main_v31) h1)

/-- An index of the result array is in point `t`'s block iff each coordinate is in the block's range on its axis. -/
theorem mem_blk4 (t : Fin cfg4.N) (i : S1703936x64.Idx) :
    i ∈ ((cfg4.win 2).blk t).view.set ↔ ∀ a : Fin 2, win4_2.index t a * S8192x64.size a ≤ (i a).val
      ∧ (i a).val < win4_2.index t a * S8192x64.size a + S8192x64.size a := by
  show i ∈ ((View.whole main_v58).slice (win4_2.rect t)).set ↔ _
  rw [View.set_slice_whole, Rect.mem_set_unit]
  exact Iff.rfl

/-- Row `r` of the result lies in the block of point `r / 8192`. -/
theorem cover4 (i : S1703936x64.Idx) :
    ∃ t : Fin cfg4.N, (cfg4.win 2).flush t = true ∧ i ∈ ((cfg4.win 2).blk t).view.set := by
  have hi0 : (i 0).val < 1703936 := (i 0).isLt
  have hi1 : (i 1).val < 64 := (i 1).isLt
  have hN : grid4.N = 208 := N_4
  let t : Fin cfg4.N := ⟨(i 0).val / 8192, by show (i 0).val / 8192 < grid4.N; rw [hN]; omega⟩
  obtain ⟨-, -, -, -, e4, e5⟩ := idx4 t
  have e4' : win4_2.index t (0 : Fin 2) = (i 0).val / 8192 := e4
  refine ⟨t, flush4_2 t, ?_⟩
  rw [mem_blk4]
  intro a
  match a with
  | ⟨0, _⟩ =>
    show win4_2.index t (0 : Fin 2) * 8192 ≤ (i 0).val ∧ (i 0).val < win4_2.index t (0 : Fin 2) * 8192 + 8192
    omega
  | ⟨1, _⟩ =>
    show win4_2.index t (1 : Fin 2) * 64 ≤ (i 1).val ∧ (i 1).val < win4_2.index t (1 : Fin 2) * 64 + 64
    omega

/-- The result array after region 4: the operand's rows scaled by the column, as the region finds them. -/
theorem final4 (c : Dev nD) : (dat4 V c).arrAt 2 cfg4.N
    = scaleRows (V c (Pipeline.arrRef spec4 0)) (V c (Pipeline.arrRef spec4 1)) :=
  (dat4 V c).arrAt_eq_of_cover 2 _ (fun t _ => flushed4_eq V c t) (cover4)

end Cert.KernelIdeal.Val

end
-- ==== Proof.LibDense.lean ====
/-
  Dense layers on the extended reals, index by index.

  A matrix here is a function of a two-coordinate index into the extended reals.  `mm X W` is the
  textbook product: entry (r, j) is the sum over k of X (r, k) * W (k, j).  A matrix unit's product into a zero
  accumulator, read at an output index, is that sum (`matmul_zero_eq`), whatever the formats of the operands
  (a change of float format is the identity on the extended reals); the host's `dot_general` likewise
  (`dotGeneral_eq`).  `ssp` is the shifted softplus as the kernel spells it,
  max z 0 + log1p (exp (0 - |z - 0|)) - log 2 under a guard `z - 0 ≠ z - 0` that never fires on the
  extended reals, and `ssp_host` says that the host's spelling, with a negation in place of the subtraction
  from zero, is the same number.
-/
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx

/-- Entry (r, j) of the product of an [R, K] matrix and a [K, C] matrix: the sum over k of X (r, k) * W (k, j). -/
def mm {R K C : Nat} (X : (⟨2, ![R, K]⟩ : Shape).Idx → EReal) (W : (⟨2, ![K, C]⟩ : Shape).Idx → EReal) :
    (⟨2, ![R, C]⟩ : Shape).Idx → EReal :=
  fun i => ∑ k : Fin K, X (ix2 (i 0) k) * W (ix2 k (i 1))

/-- A product into the zero accumulator, with dimension numbers that contract the left operand's second axis
    with the right operand's first, is `mm` at every output index. -/
theorem matmul_zero_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision)
    (lhs : FVec Ideal ⟨2, ![R, K]⟩ φ₁) (rhs : FVec Ideal ⟨2, ![K, C]⟩ φ₂) (j : (⟨2, ![R, C]⟩ : Shape).Idx) :
    FloatOps.matmul D prec lhs rhs (constant ⟨2, ![R, C]⟩ .f32 0x00000000#32) j = mm lhs rhs j := by
  rw [Ideal.matmul_constant_zero_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- The host's product of the same operands is the same sum. -/
theorem dotGeneral_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision) (sched : HostSchedule)
    (lhs : FVec Ideal ⟨2, ![R, K]⟩ φ₁) (rhs : FVec Ideal ⟨2, ![K, C]⟩ φ₂) (j : (⟨2, ![R, C]⟩ : Shape).Idx) :
    FloatOps.dotGeneral D prec sched lhs rhs j = mm lhs rhs j := by
  rw [Ideal.dotGeneral_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- Two products agree at two entries when the left operands agree along the two rows and the right operands
    along the two columns. -/
theorem mm_congr {R R' K C C' : Nat} {X : (⟨2, ![R, K]⟩ : Shape).Idx → EReal} {X' : (⟨2, ![R', K]⟩ : Shape).Idx → EReal}
    {W : (⟨2, ![K, C]⟩ : Shape).Idx → EReal} {W' : (⟨2, ![K, C']⟩ : Shape).Idx → EReal}
    (i : (⟨2, ![R, C]⟩ : Shape).Idx) (i' : (⟨2, ![R', C']⟩ : Shape).Idx)
    (hX : ∀ k : Fin K, X (ix2 (i 0) k) = X' (ix2 (i' 0) k))
    (hW : ∀ k : Fin K, W (ix2 k (i 1)) = W' (ix2 k (i' 1))) : mm X W i = mm X' W' i' := by
  unfold mm
  exact Finset.sum_congr rfl fun k _ => by rw [hX k, hW k]

/-- The zero and the shift of the softplus, as the float words both programs spell. -/
abbrev z0 : EReal := Ideal.ofBits .f32 0x00000000#32
abbrev ln2 : EReal := Ideal.ofBits .f32 0x3F317218#32

/-- The shifted softplus of one extended real, in the kernel's spelling. -/
def ssp (z : EReal) : EReal :=
  Scalar.select (Ideal.cmp .one (z - z0) (z - z0)) (z + z0)
    (max z z0 + Ideal.log1p (Ideal.exp (z0 - max (z - z0) (-(z - z0))))) - ln2

/-- The host's spelling: the unordered comparison in the guard (the same comparison on a linear order) and a
    negation where the kernel subtracts from zero. -/
theorem ssp_host (z : EReal) :
    Scalar.select (Ideal.cmp .une (z - z0) (z - z0)) (z + z0)
      (max z z0 + Ideal.log1p (Ideal.exp (-(max (z - z0) (-(z - z0)))))) - ln2 = ssp z := by
  unfold ssp
  have h0 : ∀ a : EReal, z0 - a = -a := fun a => by
    show Ideal.ofBits .f32 0x00000000#32 - a = -a
    rw [Ideal.ofBits_zero_f32, zero_sub]
  rw [h0]
  rfl

/-! ## The layers of the interaction block, entry by entry

  A bias is kept as the [1, C] row both programs hand to the layer; the per-edge distance as an [E, 1] column. -/

/-- The cosine cutoff's constants, as the float words both programs spell: π/10 rounded to f32, one, one half. -/
abbrev kpi : EReal := Ideal.ofBits .f32 0x3EA0D97C#32
abbrev one : EReal := Ideal.ofBits .f32 0x3F800000#32
abbrev half : EReal := Ideal.ofBits .f32 0x3F000000#32

/-- A length-C vector as the [1, C] row a layer takes its bias as, and a length-E vector as an [E, 1] column. -/
def row {C : Nat} (b : (⟨1, ![C]⟩ : Shape).Idx → EReal) : (⟨2, ![1, C]⟩ : Shape).Idx → EReal := fun i => b (ix1 (i 1))
def col {E : Nat} (d : (⟨1, ![E]⟩ : Shape).Idx → EReal) : (⟨2, ![E, 1]⟩ : Shape).Idx → EReal := fun i => d (ix1 (i 0))

/-- A dense layer: entry (r, j) of X · W plus the bias row's entry j. -/
def lin {R K C : Nat} (X : (⟨2, ![R, K]⟩ : Shape).Idx → EReal) (W : (⟨2, ![K, C]⟩ : Shape).Idx → EReal)
    (B : (⟨2, ![1, C]⟩ : Shape).Idx → EReal) : (⟨2, ![R, C]⟩ : Shape).Idx → EReal :=
  fun i => mm X W i + B (ix2 (0 : Fin 1) (i 1))

/-- The cosine cutoff of row r's distance d: one half of (cos (d · π/10) + 1). -/
def cutoff {R : Nat} (D : (⟨2, ![R, 1]⟩ : Shape).Idx → EReal) (r : Fin R) : EReal :=
  half * (Ideal.cos (D (ix2 r (0 : Fin 1)) * kpi) + one)

/-- Two dense layers with the shifted softplus between them. -/
def mlp {R K C C' : Nat} (X : (⟨2, ![R, K]⟩ : Shape).Idx → EReal) (W1 : (⟨2, ![K, C]⟩ : Shape).Idx → EReal)
    (B1 : (⟨2, ![1, C]⟩ : Shape).Idx → EReal) (W2 : (⟨2, ![C, C']⟩ : Shape).Idx → EReal)
    (B2 : (⟨2, ![1, C']⟩ : Shape).Idx → EReal) : (⟨2, ![R, C']⟩ : Shape).Idx → EReal :=
  lin (fun i' => ssp (lin X W1 B1 i')) W2 B2

/-- The edge filter: the two-layer filter network of an edge's features, times the edge's cutoff. -/
def edgeFilter {E K C C' : Nat} (A : (⟨2, ![E, K]⟩ : Shape).Idx → EReal) (D : (⟨2, ![E, 1]⟩ : Shape).Idx → EReal)
    (W1 : (⟨2, ![K, C]⟩ : Shape).Idx → EReal) (B1 : (⟨2, ![1, C]⟩ : Shape).Idx → EReal)
    (W2 : (⟨2, ![C, C']⟩ : Shape).Idx → EReal) (B2 : (⟨2, ![1, C']⟩ : Shape).Idx → EReal) :
    (⟨2, ![E, C']⟩ : Shape).Idx → EReal :=
  fun i => mlp A W1 B1 W2 B2 i * cutoff D (i 0)

/-- Two dense layers agree at an entry when their inputs agree on the entry's row and their weights and biases
    on its column. -/
theorem lin_congr {R R' K C : Nat} {X : (⟨2, ![R, K]⟩ : Shape).Idx → EReal} {X' : (⟨2, ![R', K]⟩ : Shape).Idx → EReal}
    {W W' : (⟨2, ![K, C]⟩ : Shape).Idx → EReal} {B B' : (⟨2, ![1, C]⟩ : Shape).Idx → EReal}
    (i : (⟨2, ![R, C]⟩ : Shape).Idx) (i' : (⟨2, ![R', C]⟩ : Shape).Idx) (h1 : i 1 = i' 1)
    (hX : ∀ k : Fin K, X (ix2 (i 0) k) = X' (ix2 (i' 0) k)) (hW : W = W') (hB : B = B') :
    lin X W B i = lin X' W' B' i' := by
  subst hW hB
  unfold lin mm
  rw [h1]
  exact congrArg (· + B (ix2 (0 : Fin 1) (i' 1))) (Finset.sum_congr rfl fun k _ => by rw [hX k])

end Cert.Dense

end
-- ==== Proof.RegMM.lean ====
/-
  The two matrix-product regions (regions 0 and 3): a [100000, K] array times a [K, 64] matrix, 10000 rows per grid
  point, the matrix fetched whole. Entry (r, j) of what a point writes back is the sum over k of the block's row
  times the matrix's column, which is the same sum read in the whole arrays; the 10 blocks tile the result, so
  after the region the result array is the product of the operand arrays.
-/
import proofs.«104852_j41480794145130_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«104852_j41480794145130_2_alg».proof.Proof.LibDense
set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

private theorem hz2 : (![0, 0] : Fin 2 → Nat) = fun _ => 0 := funext fun a => by fin_cases a <;> rfl

/-! ## Region 0: a [100000, 128] array times a [128, 64] matrix, 10000 rows per grid point -/

theorem dot0_l0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem dot0_l1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem dot0_r0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem dot0_r1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's value at an entry: the block's row times the matrix's column (a change of float format is the
    identity on the extended reals, and the accumulator starts at zero). -/
theorem pay0 (x0 : FVec Ideal S10000x128 .f32) (x1 : FVec Ideal S128x64 .f32) (j : S10000x64.Idx) :
    k0_pay1 (F := Ideal) x0 x1 j = Cert.Dense.mm (R := 10000) (K := 128) (C := 64) x0 x1 j := by
  unfold k0_pay1
  exact Cert.Dense.matmul_zero_eq dot_S10000x128_S128x64_S10000x64_1_0_0_1_n_n rfl rfl dot0_l0 dot0_l1 dot0_r0 dot0_r1 none _ _ j

/-- The index maps: the left operand's and the result's block index at point `t` is `(t, 0)`; the matrix's is `(0, 0)`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays as the region finds them. -/
theorem flushed0_eq (c : Dev nD) (t : Fin cfg0.N) :
    (dat0 V c).flushed 2 t = ((cfg0.win 2).blk t).view.read (Elt Ideal)
      (Cert.Dense.mm (R := 100000) (K := 128) (C := 64) (V c (Pipeline.arrRef spec0 0)) (V c (Pipeline.arrRef spec0 1))) := by
  show (cfg0.win 2).cut (grid0.coords t) ((dat0 V c).after 2 t) = _
  rw [after0_2]
  unfold out0_2
  rw [View.canon_unit_zero hz2]
  simp only [View.ld_unit_zero (S := S10000x128) hz2, View.ld_unit_zero (S := S128x64) hz2]
  obtain ⟨e0, e1, e2, e3, e4, e5⟩ := idx0 t
  funext j
  refine (pay0 _ _ j).trans ?_
  refine Cert.Dense.mm_congr (R := 10000) (R' := 100000) (K := 128) (C := 64) (C' := 64) j (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg2 (((cfg0.win 1).blk t).view.emb (ix2 k (j 1))) = V c main_arg2 (ix2 k ((((cfg0.win 2).blk t).view.emb j) 1))
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega

/-- An index of the result array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v32).slice (win0_2.rect t)).set ↔ _
  rw [View.set_slice_whole, Rect.mem_set_unit]
  exact Iff.rfl

/-- Row `r` of the result lies in the block of point `r / 10000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  let t : Fin cfg0.N := ⟨(i 0).val / 10000, by show (i 0).val / 10000 < grid0.N; rw [hN]; omega⟩
  obtain ⟨-, -, -, -, e4, e5⟩ := idx0 t
  have e4' : win0_2.index t (0 : Fin 2) = (i 0).val / 10000 := e4
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- The result array after region 0: the product of the operand arrays as the region finds them. -/
theorem final0 (c : Dev nD) : (dat0 V c).arrAt 2 cfg0.N
    = Cert.Dense.mm (R := 100000) (K := 128) (C := 64) (V c (Pipeline.arrRef spec0 0)) (V c (Pipeline.arrRef spec0 1)) :=
  (dat0 V c).arrAt_eq_of_cover 2 _ (fun t _ => flushed0_eq V c t) (cover0)

/-! ## Region 3: a [100000, 64] array times a [64, 64] matrix, 10000 rows per grid point -/

theorem dot3_l0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dot3_l1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem dot3_r0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem dot3_r1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's value at an entry: the block's row times the matrix's column (a change of float format is the
    identity on the extended reals, and the accumulator starts at zero). -/
theorem pay3 (x0 : FVec Ideal S10000x64 .f32) (x1 : FVec Ideal S64x64 .f32) (j : S10000x64.Idx) :
    k3_pay1 (F := Ideal) x0 x1 j = Cert.Dense.mm (R := 10000) (K := 64) (C := 64) x0 x1 j := by
  unfold k3_pay1
  refine (Cert.Dense.matmul_zero_eq dot_S10000x64_S64x64_S10000x64_1_0_0_1_n_n rfl rfl dot3_l0 dot3_l1 dot3_r0 dot3_r1 none _ _ j).trans ?_
  show Cert.Dense.mm (R := 10000) (K := 64) (C := 64) (shapeCast S10000x64 x0 shapeCasts_S10000x64_S10000x64)
    (shapeCast S64x64 x1 shapeCasts_S64x64_S64x64) j = _
  rw [shapeCast_self, shapeCast_self]

/-- The index maps: the left operand's and the result's block index at point `t` is `(t, 0)`; the matrix's is `(0, 0)`. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the product of the arrays as the region finds them. -/
theorem flushed3_eq (c : Dev nD) (t : Fin cfg3.N) :
    (dat3 V c).flushed 2 t = ((cfg3.win 2).blk t).view.read (Elt Ideal)
      (Cert.Dense.mm (R := 100000) (K := 64) (C := 64) (V c (Pipeline.arrRef spec3 0)) (V c (Pipeline.arrRef spec3 1))) := by
  show (cfg3.win 2).cut (grid3.coords t) ((dat3 V c).after 2 t) = _
  rw [after3_2]
  unfold out3_2
  rw [View.canon_unit_zero hz2]
  simp only [View.ld_unit_zero (S := S10000x64) hz2, View.ld_unit_zero (S := S64x64) hz2]
  obtain ⟨e0, e1, e2, e3, e4, e5⟩ := idx3 t
  funext j
  refine (pay3 _ _ j).trans ?_
  refine Cert.Dense.mm_congr (R := 10000) (R' := 100000) (K := 64) (C := 64) (C' := 64) j (((cfg3.win 2).blk t).view.emb j) (fun k => ?_) (fun k => ?_)
  · show V c main_v47 (((cfg3.win 0).blk t).view.emb (ix2 (j 0) k)) = V c main_v47 (ix2 ((((cfg3.win 2).blk t).view.emb j) 0) k)
    refine congrArg (V c main_v47) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * k.val = k.val; omega
  · show V c main_v48 (((cfg3.win 1).blk t).view.emb (ix2 k (j 1))) = V c main_v48 (ix2 k ((((cfg3.win 2).blk t).view.emb j) 1))
    refine congrArg (V c main_v48) (funext fun a => Fin.ext ?_)
    match a with
    | ⟨0, _⟩ => show win3_1.index t (0 : Fin 2) * 64 + 1 * k.val = k.val; omega
    | ⟨1, _⟩ => show win3_1.index t (1 : Fin 2) * 64 + 1 * (j 1).val = win3_2.index t (1 : Fin 2) * 64 + 1 * (j 1).val; omega

/-- An index of the result array is in point `t`'s block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v49).slice (win3_2.rect t)).set ↔ _
  rw [View.set_slice_whole, Rect.mem_set_unit]
  exact Iff.rfl

/-- Row `r` of the result lies in the block of point `r / 10000`. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 10 := N_3
  let t : Fin cfg3.N := ⟨(i 0).val / 10000, by show (i 0).val / 10000 < grid3.N; rw [hN]; omega⟩
  obtain ⟨-, -, -, -, e4, e5⟩ := idx3 t
  have e4' : win3_2.index t (0 : Fin 2) = (i 0).val / 10000 := e4
  refine ⟨t, flush3_2 t, ?_⟩
  rw [mem_blk3]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 64 ≤ (i 1).val ∧ (i 1).val < win3_2.index t (1 : Fin 2) * 64 + 64
    omega

/-- The result array after region 3: the product of the operand arrays as the region finds them. -/
theorem final3 (c : Dev nD) : (dat3 V c).arrAt 2 cfg3.N
    = Cert.Dense.mm (R := 100000) (K := 64) (C := 64) (V c (Pipeline.arrRef spec3 0)) (V c (Pipeline.arrRef spec3 1)) :=
  (dat3 V c).arrAt_eq_of_cover 2 _ (fun t _ => flushed3_eq V c t) (cover3)

end Cert.KernelIdeal.Val

end
-- ==== Proof.RegBias.lean ====
/-
  The two bias regions (regions 2 and 5): a [1, 64] row added to every row of a [100000, 64] array, 10000 rows per
  grid point; region 2 then takes the maximum with zero. Each is pointwise in the array and reads the row at the
  entry's column, so what a point writes back is a block of one whole-array function, and the 10 blocks tile the
  result.
-/
import proofs.«104852_j41480794145130_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

private theorem hz2 : (![0, 0] : Fin 2 → Nat) = fun _ => 0 := funext fun a => by fin_cases a <;> rfl

/-- An entry plus the row's entry of its column, then the maximum with the zero word's value. -/
abbrev biasReluAt (z b : EReal) : EReal := max (z + b) (Scalar.ofBits (F := Ideal) .f32 0x00000000#32)
/-- An entry plus the row's entry of its column. -/
abbrev biasAt (z b : EReal) : EReal := z + b

/-- `max (Z + row, 0)`, the row broadcast down the rows of `Z`. -/
def biasRelu (Z : FVec Ideal S100000x64 .f32) (b : FVec Ideal S1x64 .f32) : FVec Ideal S100000x64 .f32 :=
  fun i => biasReluAt (Z i) (b (ix2 (0 : Fin 1) (i 1)))
/-- `Z + row`, the row broadcast down the rows of `Z`. -/
def bias (Z : FVec Ideal S100000x64 .f32) (b : FVec Ideal S1x64 .f32) : FVec Ideal S100000x64 .f32 :=
  fun i => biasAt (Z i) (b (ix2 (0 : Fin 1) (i 1)))

/-! ## Region 2: a [1, 64] row added to every row of a [100000, 64] array, 10000 rows per grid point -/

/-- The body's value at an entry. -/
theorem pay2 (x0 : FVec Ideal S10000x64 .f32) (x1 : FVec Ideal S1x64 .f32) (p : Fin 10000) (q : Fin 64) :
    k2_pay1 (F := Ideal) x0 x1 (ix2 p q) = biasReluAt (x0 (ix2 p q)) (x1 (ix2 (0 : Fin 1) q)) := by
  unfold k2_pay1
  show max ((shapeCast S10000x64 x0 shapeCasts_S10000x64_S10000x64 (ix2 p q) : EReal)
      + broadcastTo S10000x64 (shapeCast S1x64 x1 shapeCasts_S1x64_S1x64) broadcasts_S1x64_S10000x64 (ix2 p q))
      (Scalar.ofBits (F := Ideal) .f32 0x00000000#32) = _
  rw [shapeCast_self, shapeCast_self, broadcastTo_1b_ab_apply]

/-- The index maps: the array's and the result's block index at point `t` is `(t, 0)`; the row's is `(0, 0)`. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `biasRelu` of the arrays as the region finds them. -/
theorem flushed2_eq (c : Dev nD) (t : Fin cfg2.N) :
    (dat2 V c).flushed 2 t = ((cfg2.win 2).blk t).view.read (Elt Ideal)
      (biasRelu (V c (Pipeline.arrRef spec2 0)) (V c (Pipeline.arrRef spec2 1))) := by
  show (cfg2.win 2).cut (grid2.coords t) ((dat2 V c).after 2 t) = _
  rw [after2_2]
  unfold out2_2
  rw [View.canon_unit_zero hz2]
  simp only [View.ld_unit_zero (S := S10000x64) hz2, View.ld_unit_zero (S := S1x64) hz2]
  obtain ⟨e0, e1, e2, e3, e4, e5⟩ := idx2 t
  funext j
  obtain ⟨p, q, rfl⟩ : ∃ (p : Fin 10000) (q : Fin 64), j = ix2 p q := ⟨j 0, j 1, eq_ix2 j⟩
  refine (pay2 _ _ p q).trans ?_
  have h0 : ((cfg2.win 0).blk t).view.emb (ix2 p q) = ((cfg2.win 2).blk t).view.emb (ix2 p q) := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * q.val = win2_2.index t (1 : Fin 2) * 64 + 1 * q.val; omega
  have h1 : ((cfg2.win 1).blk t).view.emb (ix2 (0 : Fin 1) q)
      = ix2 (0 : Fin 1) ((((cfg2.win 2).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 64 + 1 * q.val = win2_2.index t (1 : Fin 2) * 64 + 1 * q.val; omega
  exact congrArg₂ (fun a b : EReal => biasReluAt a b) (congrArg (V c main_v45) h0) (congrArg (V c main_v46) h1)

/-- An index of the result array is in point `t`'s block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v47).slice (win2_2.rect t)).set ↔ _
  rw [View.set_slice_whole, Rect.mem_set_unit]
  exact Iff.rfl

/-- Row `r` of the result lies in the block of point `r / 10000`. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 10 := N_2
  let t : Fin cfg2.N := ⟨(i 0).val / 10000, by show (i 0).val / 10000 < grid2.N; rw [hN]; omega⟩
  obtain ⟨-, -, -, -, e4, e5⟩ := idx2 t
  have e4' : win2_2.index t (0 : Fin 2) = (i 0).val / 10000 := e4
  refine ⟨t, flush2_2 t, ?_⟩
  rw [mem_blk2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 64 ≤ (i 1).val ∧ (i 1).val < win2_2.index t (1 : Fin 2) * 64 + 64
    omega

/-- The result array after region 2. -/
theorem final2 (c : Dev nD) : (dat2 V c).arrAt 2 cfg2.N
    = biasRelu (V c (Pipeline.arrRef spec2 0)) (V c (Pipeline.arrRef spec2 1)) :=
  (dat2 V c).arrAt_eq_of_cover 2 _ (fun t _ => flushed2_eq V c t) (cover2)

/-! ## Region 5: a [1, 64] row added to every row of a [100000, 64] array, 10000 rows per grid point -/

/-- The body's value at an entry. -/
theorem pay5 (x0 : FVec Ideal S10000x64 .f32) (x1 : FVec Ideal S1x64 .f32) (p : Fin 10000) (q : Fin 64) :
    k5_pay1 (F := Ideal) x0 x1 (ix2 p q) = biasAt (x0 (ix2 p q)) (x1 (ix2 (0 : Fin 1) q)) := by
  unfold k5_pay1
  show (shapeCast S10000x64 x0 shapeCasts_S10000x64_S10000x64 (ix2 p q) : EReal)
      + broadcastTo S10000x64 (shapeCast S1x64 x1 shapeCasts_S1x64_S1x64) broadcasts_S1x64_S10000x64 (ix2 p q) = _
  rw [shapeCast_self, shapeCast_self, broadcastTo_1b_ab_apply]

/-- The index maps: the array's and the result's block index at point `t` is `(t, 0)`; the row's is `(0, 0)`. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of `bias` of the arrays as the region finds them. -/
theorem flushed5_eq (c : Dev nD) (t : Fin cfg5.N) :
    (dat5 V c).flushed 2 t = ((cfg5.win 2).blk t).view.read (Elt Ideal)
      (bias (V c (Pipeline.arrRef spec5 0)) (V c (Pipeline.arrRef spec5 1))) := by
  show (cfg5.win 2).cut (grid5.coords t) ((dat5 V c).after 2 t) = _
  rw [after5_2]
  unfold out5_2
  rw [View.canon_unit_zero hz2]
  simp only [View.ld_unit_zero (S := S10000x64) hz2, View.ld_unit_zero (S := S1x64) hz2]
  obtain ⟨e0, e1, e2, e3, e4, e5⟩ := idx5 t
  funext j
  obtain ⟨p, q, rfl⟩ : ∃ (p : Fin 10000) (q : Fin 64), j = ix2 p q := ⟨j 0, j 1, eq_ix2 j⟩
  refine (pay5 _ _ p q).trans ?_
  have h0 : ((cfg5.win 0).blk t).view.emb (ix2 p q) = ((cfg5.win 2).blk t).view.emb (ix2 p q) := by
    funext a; apply Fin.ext
    match a with
    | ⟨0, _⟩ => show win5_0.index t (0 : Fin 2) * 10000 + 1 * p.val = win5_2.index t (0 : Fin 2) * 10000 + 1 * p.val; omega
    | ⟨1, _⟩ => show win5_0.index t (1 : Fin 2) * 64 + 1 * q.val = win5_2.index t (1 : Fin 2) * 64 + 1 * q.val; omega
  have h1 : ((cfg5.win 1).blk t).view.emb (ix2 (0 : Fin 1) q)
      = ix2 (0 : Fin 1) ((((cfg5.win 2).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 64 + 1 * q.val = win5_2.index t (1 : Fin 2) * 64 + 1 * q.val; omega
  exact congrArg₂ (fun a b : EReal => biasAt a b) (congrArg (V c main_v62) h0) (congrArg (V c main_v64) h1)

/-- An index of the result array is in point `t`'s block iff each coordinate is in the block's range on its axis. -/
theorem mem_blk5 (t : Fin cfg5.N) (i : S100000x64.Idx) :
    i ∈ ((cfg5.win 2).blk t).view.set ↔ ∀ a : Fin 2, win5_2.index t a * S10000x64.size a ≤ (i a).val
      ∧ (i a).val < win5_2.index t a * S10000x64.size a + S10000x64.size a := by
  show i ∈ ((View.whole main_v65).slice (win5_2.rect t)).set ↔ _
  rw [View.set_slice_whole, Rect.mem_set_unit]
  exact Iff.rfl

/-- Row `r` of the result lies in the block of point `r / 10000`. -/
theorem cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : grid5.N = 10 := N_5
  let t : Fin cfg5.N := ⟨(i 0).val / 10000, by show (i 0).val / 10000 < grid5.N; rw [hN]; omega⟩
  obtain ⟨-, -, -, -, e4, e5⟩ := idx5 t
  have e4' : win5_2.index t (0 : Fin 2) = (i 0).val / 10000 := e4
  refine ⟨t, flush5_2 t, ?_⟩
  rw [mem_blk5]
  intro a
  match a with
  | ⟨0, _⟩ =>
    show win5_2.index t (0 : Fin 2) * 10000 ≤ (i 0).val ∧ (i 0).val < win5_2.index t (0 : Fin 2) * 10000 + 10000
    omega
  | ⟨1, _⟩ =>
    show win5_2.index t (1 : Fin 2) * 64 ≤ (i 1).val ∧ (i 1).val < win5_2.index t (1 : Fin 2) * 64 + 64
    omega

/-- The result array after region 5. -/
theorem final5 (c : Dev nD) : (dat5 V c).arrAt 2 cfg5.N
    = bias (V c (Pipeline.arrRef spec5 0)) (V c (Pipeline.arrRef spec5 1)) :=
  (dat5 V c).arrAt_eq_of_cover 2 _ (fun t _ => flushed5_eq V c t) (cover5)

end Cert.KernelIdeal.Val

end
-- ==== Proof.KFold.lean ====
/-
  The kernel's two results as functions of its arguments.

  Reading the fold boundary by boundary: the first stretch leaves the edge endpoints and the padded normalisation
  column; region 0 the product of the features and the first weights; the next stretch its rows gathered at the
  sources; region 1 those rows scaled; the next stretch their sum into the destinations' rows and the bias row;
  region 2 the hidden layer `max (sum + bias, 0)`; then the same once more with the two heads' weights side by
  side and no maximum; the last stretch cuts the result's columns into the two heads.
-/
import proofs.«104852_j41480794145130_2_alg».proof.Proof.Keep
import proofs.«104852_j41480794145130_2_alg».proof.Proof.KHost
import proofs.«104852_j41480794145130_2_alg».proof.Proof.RegScale
import proofs.«104852_j41480794145130_2_alg».proof.Proof.RegMM
import proofs.«104852_j41480794145130_2_alg».proof.Proof.RegBias

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

/-! ## The stages, as functions of the argument arrays -/

section Stages
variable (x : (⟨S100000x128, .f32⟩ : BufTy).Contents (Elt Ideal)) (ei : (⟨S2x1600000, .i32⟩ : BufTy).Contents (Elt Ideal))
  (W1 : (⟨S128x64, .f32⟩ : BufTy).Contents (Elt Ideal)) (b1 : (⟨S64, .f32⟩ : BufTy).Contents (Elt Ideal))
  (Wmu : (⟨S64x32, .f32⟩ : BufTy).Contents (Elt Ideal)) (bmu : (⟨S32, .f32⟩ : BufTy).Contents (Elt Ideal))
  (Wlog : (⟨S64x32, .f32⟩ : BufTy).Contents (Elt Ideal)) (blog : (⟨S32, .f32⟩ : BufTy).Contents (Elt Ideal))

/-- Layer 1's messages: the rows of `x · W1` at the sources, scaled by the edge normalisation (padded rows included). -/
def msg1 : FVec Ideal S1703936x64 .f32 :=
  scaleRows (gatheredRows (Cert.Dense.mm (R := 100000) (K := 128) (C := 64) x W1) (ends0 ei)) (normColumn ei)
/-- The hidden layer: the messages summed into their destinations, plus the bias, floored at zero. -/
def hidden : FVec Ideal S100000x64 .f32 :=
  biasRelu (summedRows (msg1 x ei W1) (ends1 ei)) (shapeCast S1x64 b1 shapeCasts_S64_S1x64)
/-- The two heads' weights side by side. -/
def headW : FVec Ideal S64x64 .f32 :=
  concatenate S64x64 1 [⟨S64x32, Wmu⟩, ⟨S64x32, Wlog⟩] concatenates_S64x32_S64x32_S64x64_d1
/-- Layer 2's messages, both heads at once. -/
def msg2 : FVec Ideal S1703936x64 .f32 :=
  scaleRows (gatheredRows (Cert.Dense.mm (R := 100000) (K := 64) (C := 64) (hidden x ei W1 b1) (headW Wmu Wlog)) (ends0 ei)) (normColumn ei)
/-- Both heads' outputs side by side. -/
def heads : FVec Ideal S100000x64 .f32 :=
  bias (summedRows (msg2 x ei W1 b1 Wmu Wlog) (ends1 ei))
    (shapeCast S1x64 (concatenate S64 0 [⟨S32, bmu⟩, ⟨S32, blog⟩] concatenates_S32_S32_S64_d0) shapeCasts_S64_S1x64)
end Stages

/-! ## The fold, boundary by boundary -/

variable (m : (ℓ : Loc nD τ sig) → Buf (Elt Ideal) ℓ) (ρ : Dev nD → PrngReg) (c : Dev nD)

theorem at4_src : W4 m ρ c (Proc.devRef .tc main_v5) = ends0 (m ((c : Thread nD τ).loc main_arg1)) := ends0_read (W0 m ρ c)
theorem at4_dst : W4 m ρ c (Proc.devRef .tc main_v6) = ends1 (m ((c : Thread nD τ).loc main_arg1)) := ends1_read (W0 m ρ c)
theorem at4_nrm : W4 m ρ c (Proc.devRef .tc main_v31) = normColumn (m ((c : Thread nD τ).loc main_arg1)) := normColumn_read (W0 m ρ c)

theorem at5_y : W5 m ρ c (Proc.devRef .tc main_v32)
    = Cert.Dense.mm (R := 100000) (K := 128) (C := 64) (m ((c : Thread nD τ).loc main_arg0)) (m ((c : Thread nD τ).loc main_arg2)) := by
  refine (W5_arr m ρ c 2).trans ?_
  rw [final0 (V4 m ρ) c]
  show Cert.Dense.mm (R := 100000) (K := 128) (C := 64) (W4 m ρ c (Proc.devRef .tc main_arg0)) (W4 m ρ c (Proc.devRef .tc main_arg2)) = _
  rw [arg0_at4, arg2_at4]

theorem at7_g : W7 m ρ c (Proc.devRef .tc main_v40)
    = gatheredRows (Cert.Dense.mm (R := 100000) (K := 128) (C := 64) (m ((c : Thread nD τ).loc main_arg0)) (m ((c : Thread nD τ).loc main_arg2))) (ends0 (m ((c : Thread nD τ).loc main_arg1))) := by
  refine (gathered1_read (W5 m ρ c)).trans ?_
  rw [at5_y, src_at5, at4_src]

theorem at7_nrm : W7 m ρ c (Proc.devRef .tc main_v31) = normColumn (m ((c : Thread nD τ).loc main_arg1)) := (nrm_at7 m ρ c).trans (at4_nrm m ρ c)

theorem at8_m : W8 m ρ c (Proc.devRef .tc main_v41) = msg1 (m ((c : Thread nD τ).loc main_arg0)) (m ((c : Thread nD τ).loc main_arg1)) (m ((c : Thread nD τ).loc main_arg2)) := by
  refine (W8_arr m ρ c 2).trans ?_
  rw [final1 (V7 m ρ) c]
  show scaleRows (W7 m ρ c (Proc.devRef .tc main_v40)) (W7 m ρ c (Proc.devRef .tc main_v31)) = _
  rw [at7_g, at7_nrm]
  rfl

theorem at9_z : W9 m ρ c (Proc.devRef .tc main_v45) = summedRows (msg1 (m ((c : Thread nD τ).loc main_arg0)) (m ((c : Thread nD τ).loc main_arg1)) (m ((c : Thread nD τ).loc main_arg2))) (ends1 (m ((c : Thread nD τ).loc main_arg1))) := by
  refine (summed2_read (W8 m ρ c)).trans ?_
  rw [at8_m, dst_at8, at4_dst]

theorem at9_b : W9 m ρ c (Proc.devRef .tc main_v46) = shapeCast S1x64 (m ((c : Thread nD τ).loc main_arg3)) shapeCasts_S64_S1x64 := by
  refine (biasRow2_read (W8 m ρ c)).trans ?_
  rw [arg3_at8]

theorem at10_h : W10 m ρ c (Proc.devRef .tc main_v47) = hidden (m ((c : Thread nD τ).loc main_arg0)) (m ((c : Thread nD τ).loc main_arg1)) (m ((c : Thread nD τ).loc main_arg2)) (m ((c : Thread nD τ).loc main_arg3)) := by
  refine (W10_arr m ρ c 2).trans ?_
  rw [final2 (V9 m ρ) c]
  show biasRelu (W9 m ρ c (Proc.devRef .tc main_v45)) (W9 m ρ c (Proc.devRef .tc main_v46)) = _
  rw [at9_z, at9_b]
  rfl

theorem at11_w : W11 m ρ c (Proc.devRef .tc main_v48) = headW (m ((c : Thread nD τ).loc main_arg4)) (m ((c : Thread nD τ).loc main_arg6)) := by
  refine (weights3_read (W10 m ρ c)).trans ?_
  rw [arg4_at10, arg6_at10]
  rfl

theorem at11_h : W11 m ρ c (Proc.devRef .tc main_v47) = hidden (m ((c : Thread nD τ).loc main_arg0)) (m ((c : Thread nD τ).loc main_arg1)) (m ((c : Thread nD τ).loc main_arg2)) (m ((c : Thread nD τ).loc main_arg3)) :=
  (hid_at11 m ρ c).trans (at10_h m ρ c)

theorem at12_y : W12 m ρ c (Proc.devRef .tc main_v49)
    = Cert.Dense.mm (R := 100000) (K := 64) (C := 64) (hidden (m ((c : Thread nD τ).loc main_arg0)) (m ((c : Thread nD τ).loc main_arg1)) (m ((c : Thread nD τ).loc main_arg2)) (m ((c : Thread nD τ).loc main_arg3))) (headW (m ((c : Thread nD τ).loc main_arg4)) (m ((c : Thread nD τ).loc main_arg6))) := by
  refine (W12_arr m ρ c 2).trans ?_
  rw [final3 (V11 m ρ) c]
  show Cert.Dense.mm (R := 100000) (K := 64) (C := 64) (W11 m ρ c (Proc.devRef .tc main_v47)) (W11 m ρ c (Proc.devRef .tc main_v48)) = _
  rw [at11_h, at11_w]

theorem at14_g : W14 m ρ c (Proc.devRef .tc main_v57)
    = gatheredRows (Cert.Dense.mm (R := 100000) (K := 64) (C := 64) (hidden (m ((c : Thread nD τ).loc main_arg0)) (m ((c : Thread nD τ).loc main_arg1)) (m ((c : Thread nD τ).loc main_arg2)) (m ((c : Thread nD τ).loc main_arg3))) (headW (m ((c : Thread nD τ).loc main_arg4)) (m ((c : Thread nD τ).loc main_arg6)))) (ends0 (m ((c : Thread nD τ).loc main_arg1))) := by
  refine (gathered4_read (W12 m ρ c)).trans ?_
  rw [at12_y, src_at12, at4_src]

theorem at14_nrm : W14 m ρ c (Proc.devRef .tc main_v31) = normColumn (m ((c : Thread nD τ).loc main_arg1)) := (nrm_at14 m ρ c).trans (at4_nrm m ρ c)

theorem at15_m : W15 m ρ c (Proc.devRef .tc main_v58) = msg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (W15_arr m ρ c 2).trans ?_
  rw [final4 (V14 m ρ) c]
  show scaleRows (W14 m ρ c (Proc.devRef .tc main_v57)) (W14 m ρ c (Proc.devRef .tc main_v31)) = _
  rw [at14_g, at14_nrm]
  rfl

theorem at16_z : W16 m ρ c (Proc.devRef .tc main_v62)
    = summedRows (msg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))) (ends1 (m ((c : Thread nD τ).loc main_arg1))) := by
  refine (summed5_read (W15 m ρ c)).trans ?_
  rw [at15_m, dst_at15, at4_dst]

theorem at16_b : W16 m ρ c (Proc.devRef .tc main_v64)
    = shapeCast S1x64 (concatenate S64 0 [⟨S32, (m ((c : Thread nD τ).loc main_arg5))⟩, ⟨S32, (m ((c : Thread nD τ).loc main_arg7))⟩] concatenates_S32_S32_S64_d0) shapeCasts_S64_S1x64 := by
  refine (biasRow5_read (W15 m ρ c)).trans ?_
  rw [arg5_at15, arg7_at15]

theorem at17_o : W17 m ρ c (Proc.devRef .tc main_v65)
    = heads (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W17_arr m ρ c 2).trans ?_
  rw [final5 (V16 m ρ) c]
  show bias (W16 m ρ c (Proc.devRef .tc main_v62)) (W16 m ρ c (Proc.devRef .tc main_v64)) = _
  rw [at16_z, at16_b]
  rfl

/-- The first result: the left 32 columns of the heads. -/
theorem result0 : W18 m ρ c (Proc.devRef .tc main_v66)
    = extractStridedSlice S100000x32 ![0, 0] (heads (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) slices_S100000x64_S100000x32_0_0 := by
  refine (mean_read (W17 m ρ c)).trans ?_
  rw [at17_o]

/-- The second result: the right 32 columns of the heads. -/
theorem result1 : W18 m ρ c (Proc.devRef .tc main_v67)
    = extractStridedSlice S100000x32 ![0, 32] (heads (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) slices_S100000x64_S100000x32_0_32 := by
  refine (logstd_read (W17 m ρ c)).trans ?_
  rw [at17_o]

end Cert.KernelIdeal.Val

end
-- ==== Proof.LibScatterCol.lean ====
/-
  A count scattered into a vector and the same count scattered into a one-column matrix.

  The host's accumulating scatter adds, to each operand element, the updates whose result index is that element.
  With one scatter index per update (the index array an [E, 1] column, read signed and not clamped) there are two
  spellings of "add update e at row idx e": into an [N] vector from an [E] vector of updates (no window axis, the
  operand's only axis inserted), and into an [N, 1] matrix from an [E, 1] matrix of updates (the second axis a
  window of extent one). Update e lands on row n in either spelling exactly when the signed index word of e is n,
  so the two results agree row by row whenever the operands and the updates do.
-/
import Idealize.ShloMosaic.Lib.ValueIdx
import Idealize.ShloMosaic.Lib.Pipeline.Value
import Idealize.ShloMosaic.PureOps.Ideal.Laws

noncomputable section

namespace Cert.ScatterCol

open Idealize.ShloMosaic Idealize.ShloMosaic.ValueIdx

variable {N E : Nat}

/-- The dimension numbers of the scatter into a vector: no window axis, the operand's axis inserted. -/
abbrev dvec (h : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, h⟩
/-- The dimension numbers of the scatter into a one-column matrix: the second axis a window. -/
abbrev dcol (h : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ := ⟨[1], [0], [0], 1, h⟩

theorem start_vec (h) {w : Nat} (j : (⟨1, ![E]⟩ : Shape).Idx) (idx : IVec ⟨2, ![E, 1]⟩ w) :
    (dvec (N := N) h).start j idx 0 = (idx (ix2 (j 0) (0 : Fin 1))).toInt := by
  refine congrArg (fun z => (idx z).toInt) (funext fun b => Fin.ext ?_)
  match b with
  | ⟨0, _⟩ => rfl
  | ⟨1, _⟩ => rfl

theorem window_vec (h) (j : (⟨1, ![E]⟩ : Shape).Idx) : (dvec (N := N) h).window j 0 = 0 := rfl

theorem start_col0 (h) {w : Nat} (j : (⟨2, ![E, 1]⟩ : Shape).Idx) (idx : IVec ⟨2, ![E, 1]⟩ w) :
    (dcol (N := N) h).start j idx 0 = (idx (ix2 (j 0) (0 : Fin 1))).toInt := by
  refine congrArg (fun z => (idx z).toInt) (funext fun b => Fin.ext ?_)
  match b with
  | ⟨0, _⟩ => rfl
  | ⟨1, _⟩ => rfl

theorem start_col1 (h) {w : Nat} (j : (⟨2, ![E, 1]⟩ : Shape).Idx) (idx : IVec ⟨2, ![E, 1]⟩ w) :
    (dcol (N := N) h).start j idx 1 = 0 := rfl
theorem window_col0 (h) (j : (⟨2, ![E, 1]⟩ : Shape).Idx) : (dcol (N := N) h).window j 0 = 0 := rfl
theorem window_col1 (h) (j : (⟨2, ![E, 1]⟩ : Shape).Idx) : (dcol (N := N) h).window j 1 = (j 1).val := rfl

/-- Into the vector, update j lands on element i exactly when its signed index word is i's coordinate. -/
theorem resultIdx_vec_iff (h) {w : Nat} (j : (⟨1, ![E]⟩ : Shape).Idx) (idx : IVec ⟨2, ![E, 1]⟩ w)
    (i : (⟨1, ![N]⟩ : Shape).Idx) :
    (dvec (N := N) h).resultIdx? j idx = some i ↔ (idx (ix2 (j 0) (0 : Fin 1))).toInt = ((i 0).val : Int) := by
  have hs := start_vec (N := N) h j idx
  have hw := window_vec (N := N) h j
  have hi : (i 0).val < N := (i 0).isLt
  unfold ScatterDims.resultIdx?
  split
  · rename_i hall
    have h0 : 0 ≤ (dvec (N := N) h).start j idx 0 + ((dvec (N := N) h).window j 0 : Int)
        ∧ (dvec (N := N) h).start j idx 0 + ((dvec (N := N) h).window j 0 : Int) < (N : Int) := hall 0
    rw [hs, hw] at h0
    rw [Option.some.injEq]
    constructor
    · intro e
      have e0 : ((dvec (N := N) h).start j idx 0 + ((dvec (N := N) h).window j 0 : Int)).toNat = (i 0).val :=
        congrArg (fun f => (f 0).val) e
      rw [hs, hw] at e0
      omega
    · intro e
      funext a
      match a with
      | ⟨0, _⟩ =>
        apply Fin.ext
        show ((dvec (N := N) h).start j idx 0 + ((dvec (N := N) h).window j 0 : Int)).toNat = (i 0).val
        rw [hs, hw]; omega
  · rename_i hnot
    constructor
    · intro e; cases e
    · intro e
      exfalso; apply hnot
      intro a
      match a with
      | ⟨0, _⟩ =>
        show 0 ≤ (dvec (N := N) h).start j idx 0 + ((dvec (N := N) h).window j 0 : Int)
          ∧ (dvec (N := N) h).start j idx 0 + ((dvec (N := N) h).window j 0 : Int) < (N : Int)
        rw [hs, hw]; omega

/-- Into the one-column matrix, update j lands on element i exactly when its signed index word is i's row. -/
theorem resultIdx_col_iff (h) {w : Nat} (j : (⟨2, ![E, 1]⟩ : Shape).Idx) (idx : IVec ⟨2, ![E, 1]⟩ w)
    (i : (⟨2, ![N, 1]⟩ : Shape).Idx) :
    (dcol (N := N) h).resultIdx? j idx = some i ↔ (idx (ix2 (j 0) (0 : Fin 1))).toInt = ((i 0).val : Int) := by
  have hs0 := start_col0 (N := N) h j idx
  have hs1 := start_col1 (N := N) h j idx
  have hw0 := window_col0 (N := N) h j
  have hw1 := window_col1 (N := N) h j
  have hi : (i 0).val < N := (i 0).isLt
  have hi1 : (i 1).val < 1 := (i 1).isLt
  have hj1 : (j 1).val < 1 := (j 1).isLt
  unfold ScatterDims.resultIdx?
  split
  · rename_i hall
    have h0 : 0 ≤ (dcol (N := N) h).start j idx 0 + ((dcol (N := N) h).window j 0 : Int)
        ∧ (dcol (N := N) h).start j idx 0 + ((dcol (N := N) h).window j 0 : Int) < (N : Int) := hall 0
    rw [hs0, hw0] at h0
    rw [Option.some.injEq]
    constructor
    · intro e
      have e0 : ((dcol (N := N) h).start j idx 0 + ((dcol (N := N) h).window j 0 : Int)).toNat = (i 0).val :=
        congrArg (fun f => (f 0).val) e
      rw [hs0, hw0] at e0
      omega
    · intro e
      funext a
      match a with
      | ⟨0, _⟩ =>
        apply Fin.ext
        show ((dcol (N := N) h).start j idx 0 + ((dcol (N := N) h).window j 0 : Int)).toNat = (i 0).val
        rw [hs0, hw0]; omega
      | ⟨1, _⟩ =>
        apply Fin.ext
        show ((dcol (N := N) h).start j idx 1 + ((dcol (N := N) h).window j 1 : Int)).toNat = (i 1).val
        rw [hs1, hw1]; omega
  · rename_i hnot
    constructor
    · intro e; cases e
    · intro e
      exfalso; apply hnot
      intro a
      match a with
      | ⟨0, _⟩ =>
        show 0 ≤ (dcol (N := N) h).start j idx 0 + ((dcol (N := N) h).window j 0 : Int)
          ∧ (dcol (N := N) h).start j idx 0 + ((dcol (N := N) h).window j 0 : Int) < (N : Int)
        rw [hs0, hw0]; omega
      | ⟨1, _⟩ =>
        show 0 ≤ (dcol (N := N) h).start j idx 1 + ((dcol (N := N) h).window j 1 : Int)
          ∧ (dcol (N := N) h).start j idx 1 + ((dcol (N := N) h).window j 1 : Int) < ((1 : Nat) : Int)
        rw [hs1, hw1]; omega

/-- The [E, 1] update indices are the [E] update indices, by the first coordinate. -/
def colEquiv : (⟨2, ![E, 1]⟩ : Shape).Idx ≃ (⟨1, ![E]⟩ : Shape).Idx where
  toFun j := ix1 (j 0)
  invFun j := ix2 (j 0) (0 : Fin 1)
  left_inv j := by
    funext a
    match a with
    | ⟨0, _⟩ => rfl
    | ⟨1, _⟩ => exact Fin.ext (by have h1 : (j 1).val < 1 := (j 1).isLt; show 0 = (j 1).val; omega)
  right_inv j := by
    funext a
    match a with
    | ⟨0, _⟩ => rfl

/-- The scatter into the one-column matrix, at row n, is the scatter into the vector at n, when the operands
    agree at that row and the updates agree row by row. -/
theorem scatterAdd_col_eq_vec (hv) (hc) {w : Nat} (idx : IVec ⟨2, ![E, 1]⟩ w)
    (x1 : (⟨1, ![N]⟩ : Shape).Idx → EReal) (x2 : (⟨2, ![N, 1]⟩ : Shape).Idx → EReal)
    (u1 : (⟨1, ![E]⟩ : Shape).Idx → EReal) (u2 : (⟨2, ![E, 1]⟩ : Shape).Idx → EReal)
    (n : Fin N) (hx : x2 (ix2 n (0 : Fin 1)) = x1 (ix1 n))
    (hu : ∀ e : Fin E, u2 (ix2 e (0 : Fin 1)) = u1 (ix1 e)) :
    Ideal.hostScatterAdd (dcol (N := N) hc) x2 idx u2 (ix2 n (0 : Fin 1))
      = Ideal.hostScatterAdd (dvec (N := N) hv) x1 idx u1 (ix1 n) := by
  unfold Ideal.hostScatterAdd
  rw [hx]
  refine congrArg (x1 (ix1 n) + ·) ?_
  refine Finset.sum_equiv colEquiv (fun j => ?_) (fun j _ => ?_)
  · simp only [Finset.mem_filter, Finset.mem_univ, true_and]
    rw [resultIdx_col_iff, resultIdx_vec_iff]
    exact Iff.rfl
  · have hj : j = ix2 (j 0) (0 : Fin 1) := (colEquiv.left_inv j).symm
    rw [hj]
    exact hu (j 0)

end Cert.ScatterCol

end
-- ==== Proof.LibScatterSum.lean ====
/-
  The host's accumulating scatter, one scatter index per update row, read at an element as a sum over the rows.

  With the scatter indices an [E, 1] column (read signed, not clamped) an update row e lands on operand row n exactly
  when the signed word idx[e, 0] is n. Two spellings: [E] updates into an [N] vector, and [E, C] update rows into an
  [N, C] matrix (the second axis a window axis: update (e, k) lands on (n, k)). Either result element is the operand
  element plus the sum, over all rows e, of the update of row e when that row lands on n and of zero otherwise.
-/
import proofs.«104852_j41480794145130_2_alg».proof.Proof.LibScatterCol

noncomputable section

namespace Cert.ScatterSum

open Idealize.ShloMosaic Idealize.ShloMosaic.ValueIdx Cert.ScatterCol

variable {N C E : Nat}

/-- The dimension numbers of the scatter of rows into a matrix: the second axis a window, the first inserted. -/
abbrev dmat (h : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, h⟩

theorem start_mat0 (h) {w : Nat} (j : (⟨2, ![E, C]⟩ : Shape).Idx) (idx : IVec ⟨2, ![E, 1]⟩ w) :
    (dmat (N := N) h).start j idx 0 = (idx (ix2 (j 0) (0 : Fin 1))).toInt := by
  refine congrArg (fun z => (idx z).toInt) (funext fun b => Fin.ext ?_)
  match b with
  | ⟨0, _⟩ => rfl
  | ⟨1, _⟩ => rfl

theorem start_mat1 (h) {w : Nat} (j : (⟨2, ![E, C]⟩ : Shape).Idx) (idx : IVec ⟨2, ![E, 1]⟩ w) :
    (dmat (N := N) h).start j idx 1 = 0 := rfl
theorem window_mat0 (h) (j : (⟨2, ![E, C]⟩ : Shape).Idx) : (dmat (N := N) h).window j 0 = 0 := rfl
theorem window_mat1 (h) (j : (⟨2, ![E, C]⟩ : Shape).Idx) : (dmat (N := N) h).window j 1 = (j 1).val := rfl

/-- Into the matrix, update (e, k) lands on element (n, k') exactly when the signed index word of row e is n and
    k = k'. -/
theorem resultIdx_mat_iff (h) {w : Nat} (j : (⟨2, ![E, C]⟩ : Shape).Idx) (idx : IVec ⟨2, ![E, 1]⟩ w)
    (i : (⟨2, ![N, C]⟩ : Shape).Idx) :
    (dmat (N := N) h).resultIdx? j idx = some i
      ↔ (idx (ix2 (j 0) (0 : Fin 1))).toInt = ((i 0).val : Int) ∧ (j 1).val = (i 1).val := by
  have hs0 := start_mat0 (N := N) h j idx
  have hs1 := start_mat1 (N := N) h j idx
  have hw0 := window_mat0 (N := N) h j
  have hw1 := window_mat1 (N := N) h j
  have hi : (i 0).val < N := (i 0).isLt
  have hi1 : (i 1).val < C := (i 1).isLt
  have hj1 : (j 1).val < C := (j 1).isLt
  unfold ScatterDims.resultIdx?
  split
  · rename_i hall
    have h0 : 0 ≤ (dmat (N := N) h).start j idx 0 + ((dmat (N := N) h).window j 0 : Int)
        ∧ (dmat (N := N) h).start j idx 0 + ((dmat (N := N) h).window j 0 : Int) < (N : Int) := hall 0
    rw [hs0, hw0] at h0
    rw [Option.some.injEq]
    constructor
    · intro e
      have e0 : ((dmat (N := N) h).start j idx 0 + ((dmat (N := N) h).window j 0 : Int)).toNat = (i 0).val :=
        congrArg (fun f => (f 0).val) e
      have e1 : ((dmat (N := N) h).start j idx 1 + ((dmat (N := N) h).window j 1 : Int)).toNat = (i 1).val :=
        congrArg (fun f => (f 1).val) e
      rw [hs0, hw0] at e0
      rw [hs1, hw1] at e1
      omega
    · intro e
      funext a
      match a with
      | ⟨0, _⟩ =>
        apply Fin.ext
        show ((dmat (N := N) h).start j idx 0 + ((dmat (N := N) h).window j 0 : Int)).toNat = (i 0).val
        rw [hs0, hw0]; omega
      | ⟨1, _⟩ =>
        apply Fin.ext
        show ((dmat (N := N) h).start j idx 1 + ((dmat (N := N) h).window j 1 : Int)).toNat = (i 1).val
        rw [hs1, hw1]; omega
  · rename_i hnot
    constructor
    · intro e; cases e
    · intro e
      exfalso; apply hnot
      intro a
      match a with
      | ⟨0, _⟩ =>
        show 0 ≤ (dmat (N := N) h).start j idx 0 + ((dmat (N := N) h).window j 0 : Int)
          ∧ (dmat (N := N) h).start j idx 0 + ((dmat (N := N) h).window j 0 : Int) < (N : Int)
        rw [hs0, hw0]; omega
      | ⟨1, _⟩ =>
        show 0 ≤ (dmat (N := N) h).start j idx 1 + ((dmat (N := N) h).window j 1 : Int)
          ∧ (dmat (N := N) h).start j idx 1 + ((dmat (N := N) h).window j 1 : Int) < ((C : Nat) : Int)
        rw [hs1, hw1]; omega

/-- The host's accumulating scatter at the exact instance is the sum it denotes (by definition). -/
theorem scatterAdd_ideal {s si su : Shape} {φ : FTy} (d : ScatterDims s si su) {w : Nat} (x : FVec Ideal s φ)
    (idx : IVec si w) (u : FVec Ideal su φ) : Host.scatterAdd d x idx u = Ideal.hostScatterAdd d x idx u := rfl

/-- THE SCATTER OF ROWS READ AT (n, k): the operand there plus, over the rows e, update (e, k) when row e's signed
    index word is n. -/
theorem scatterAdd_mat_apply (h) {w : Nat} (idx : IVec ⟨2, ![E, 1]⟩ w)
    (x : (⟨2, ![N, C]⟩ : Shape).Idx → EReal) (u : (⟨2, ![E, C]⟩ : Shape).Idx → EReal) (n : Fin N) (k : Fin C) :
    Ideal.hostScatterAdd (dmat (N := N) h) x idx u (ix2 n k)
      = x (ix2 n k) + ∑ e : Fin E, if (idx (ix2 e (0 : Fin 1))).toInt = (n.val : Int) then u (ix2 e k) else 0 := by
  unfold Ideal.hostScatterAdd
  refine congrArg (x (ix2 n k) + ·) ?_
  rw [← Finset.sum_filter]
  refine Finset.sum_bij (fun j _ => j 0) (fun j hj => ?_) (fun j hj j' hj' e => ?_) (fun e he => ?_) (fun j hj => ?_)
  · have := (resultIdx_mat_iff (N := N) h j idx (ix2 n k)).mp (Finset.mem_filter.mp hj).2
    exact Finset.mem_filter.mpr ⟨Finset.mem_univ _, this.1⟩
  · have a := (resultIdx_mat_iff (N := N) h j idx (ix2 n k)).mp (Finset.mem_filter.mp hj).2
    have a' := (resultIdx_mat_iff (N := N) h j' idx (ix2 n k)).mp (Finset.mem_filter.mp hj').2
    rw [eq_ix2 j, eq_ix2 j']
    have e1 : j 1 = j' 1 := Fin.ext (a.2.trans a'.2.symm)
    have e0 : j 0 = j' 0 := e
    rw [e0, e1]
  · refine ⟨ix2 e k, Finset.mem_filter.mpr ⟨Finset.mem_univ _, ?_⟩, rfl⟩
    exact (resultIdx_mat_iff (N := N) h (ix2 e k) idx (ix2 n k)).mpr ⟨(Finset.mem_filter.mp he).2, rfl⟩
  · have a := (resultIdx_mat_iff (N := N) h j idx (ix2 n k)).mp (Finset.mem_filter.mp hj).2
    have e1 : j 1 = k := Fin.ext a.2
    exact congrArg u ((eq_ix2 j).trans (congrArg (fun z => ix2 (j 0) z) e1))

/-- THE SCATTER INTO A VECTOR READ AT n: the operand there plus, over the rows e, update e when row e's signed
    index word is n. -/
theorem scatterAdd_vec_apply (h) {w : Nat} (idx : IVec ⟨2, ![E, 1]⟩ w)
    (x : (⟨1, ![N]⟩ : Shape).Idx → EReal) (u : (⟨1, ![E]⟩ : Shape).Idx → EReal) (n : Fin N) :
    Ideal.hostScatterAdd (dvec (N := N) h) x idx u (ix1 n)
      = x (ix1 n) + ∑ e : Fin E, if (idx (ix2 e (0 : Fin 1))).toInt = (n.val : Int) then u (ix1 e) else 0 := by
  unfold Ideal.hostScatterAdd
  refine congrArg (x (ix1 n) + ·) ?_
  rw [← Finset.sum_filter]
  refine Finset.sum_bij (fun j _ => j 0) (fun j hj => ?_) (fun j hj j' hj' e => ?_) (fun e he => ?_) (fun j hj => ?_)
  · have := (resultIdx_vec_iff (N := N) h j idx (ix1 n)).mp (Finset.mem_filter.mp hj).2
    exact Finset.mem_filter.mpr ⟨Finset.mem_univ _, this⟩
  · rw [eq_ix1 j, eq_ix1 j']
    have e0 : j 0 = j' 0 := e
    rw [e0]
  · refine ⟨ix1 e, Finset.mem_filter.mpr ⟨Finset.mem_univ _, ?_⟩, rfl⟩
    exact (resultIdx_vec_iff (N := N) h (ix1 e) idx (ix1 n)).mpr (Finset.mem_filter.mp he).2
  · exact congrArg u (eq_ix1 j)

end Cert.ScatterSum

end
-- ==== Proof.LibGatherRows.lean ====
/-
  `stablehlo.gather` of whole rows of a matrix, read at an index.

  What `x[idx]` of a table `x : [N, C]` at an integer vector `idx : [E]` lowers to, the vector carried as an
  `[E, 1]` array of start indices: offset axes `[1]`, collapsed axes `[0]`, start index map `[0]`, the index vector on
  axis 1, slice sizes `[1, C]`. Result element `(e, k)` is the table's element `(r, k)`, the row `r` being the start
  word `idx[e, 0]` read as a signed integer and clamped into `[0, N - 1]`: a negative word reads row 0, a word past
  the table its last row.
-/
import Idealize.ShloMosaic.Lib.ValueIdx

noncomputable section

namespace Idealize.ShloMosaic.ValueIdx

open Idealize.ShloMosaic

section Rows
variable {α : Type}

/-- Those dimension numbers for a table `[N, C]`, start indices `[E, 1]` and a result `[E, C]`; their conditions are
    decided on a program's literal shapes. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start word names in a table of `N` rows: the word read signed, clamped into `[0, N - 1]`. -/
def clampRow (N : Nat) {w : Nat} (v : BitVec w) : Nat := min v.toInt.toNat (N - 1)

theorem clampRow_lt {N : Nat} (hN : 0 < N) {w : Nat} (v : BitVec w) : clampRow N v < N := by
  unfold clampRow; omega

/-- THE GATHER READ AT `(e, k)`: the table at row `clampRow N idx[e, 0]`, column `k`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsDims N C E wf) x idx (ix2 e k)
      = x (ix2 ⟨clampRow N (idx (ix2 e (0 : Fin 1))), clampRow_lt hN _⟩ k) := by
  unfold Host.gather
  congr 1
  funext a
  refine Fin.ext ?_
  match a with
  | ⟨0, _⟩ =>
    show (rowsDims N C E wf).start (ix2 e k) idx 0 + (rowsDims N C E wf).batchCoord (ix2 e k) 0
      + (rowsDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e k) ⟨List.idxOf (0 : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N C E wf).start (ix2 e k) idx 1 + (rowsDims N C E wf).batchCoord (ix2 e k) 1
      + (rowsDims N C E wf).offCoord (ix2 e k) 1 = k.val
    rw [GatherDims.batchCoord_eq_zero _ _ _ List.not_mem_nil]
    unfold GatherDims.start
    rw [dif_neg (show ¬ (1 : Fin 2) ∈ (rowsDims N C E wf).startIndexMap from
      fun h => absurd (congrArg Fin.val (List.mem_singleton.mp h)) Nat.one_ne_zero)]
    simp only [Nat.add_zero, Nat.zero_add]
    unfold GatherDims.offCoord
    rw [dif_pos (show (1 : Fin 2) ∈ (rowsDims N C E wf).sKept from (GatherDims.mem_sKept _ _).mpr
      ⟨fun h => absurd (congrArg Fin.val (List.mem_singleton.mp h)) Nat.one_ne_zero, List.not_mem_nil⟩)]
    rfl

end Rows

end Idealize.ShloMosaic.ValueIdx

end
-- ==== Proof.LibColRow.lean ====
/-
  A vector viewed as a one-column or a one-row matrix, spelt two ways.

  A kernel's wrapper reshapes an `[a]` vector to an `[a, 1]` column (or a `[b]` vector to a `[1, b]` row) before it
  hands it to a kernel; a jnp reference that writes `v[:, None]` or adds a bias row broadcasts the vector in
  dimensions, along axis 0 (or axis 1). Both are the same array: entry `(p, 0)` of the column is `v p`, entry `(0, q)`
  of the row is `v q`. Also here: a column broadcast in dimensions along every row's entries, and a row along every
  row, read at an index written by coordinates (the host's companions of the kernel-side broadcasts of a column and of
  a row).
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` vector broadcast in dimensions along axis 0 of `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A `[b]` vector broadcast in dimensions along axis 1 of `[1, b]` reads, at `(u, q)`, the vector at `q`. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- The column of a vector: the cast to `[a, 1]` is the broadcast in dimensions along axis 0. -/
theorem shapeCast_col_eq_broadcastInDim {a : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext i
  obtain ⟨p, u, rfl⟩ : ∃ (p : Fin a) (u : Fin 1), i = ix2 p u := ⟨i 0, i 1, eq_ix2 i⟩
  rw [broadcastInDim_a_a1_apply]
  refine shapeCast_apply x hc _ _ ?_
  have hu : u.val = 0 := by omega
  rw [Shape.rowMajor_val_two, Shape.rowMajor_val_one]
  show p.val = p.val * 1 + u.val
  rw [hu, Nat.mul_one, Nat.add_zero]

/-- The row of a vector: the cast to `[1, b]` is the broadcast in dimensions along axis 1. -/
theorem shapeCast_row_eq_broadcastInDim {b : ℕ} (x : (⟨1, ![b]⟩ : Shape).Idx → α)
    (hc : (⟨1, ![b]⟩ : Shape).ShapeCasts ⟨2, ![1, b]⟩) (hb : (⟨1, ![b]⟩ : Shape).BroadcastsInDim ⟨2, ![1, b]⟩ ![1]) :
    shapeCast ⟨2, ![1, b]⟩ x hc = broadcastInDim ⟨2, ![1, b]⟩ ![1] hb x := by
  funext i
  obtain ⟨u, q, rfl⟩ : ∃ (u : Fin 1) (q : Fin b), i = ix2 u q := ⟨i 0, i 1, eq_ix2 i⟩
  rw [broadcastInDim_b_1b_apply, shapeCast_a_1a_apply]

/-- An `[a, 1]` column broadcast in dimensions to `[a, b]` reads, at `(p, q)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, b]` row broadcast in dimensions to `[a, b]` reads, at `(p, q)`, the row's entry of column `q`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

end Idealize.ShloMosaic.ValueIdx
-- ==== Proof.Bridge1a.lean ====
/-
  The kernel's results are the reference's.

  Both programs compute, for a graph with self loops added and the symmetric normalisation
  `norm e = d(src e)^(-1/2) · d(dst e)^(-1/2)`:

      hidden = max (S (x · W1) + b1, 0),      mean = S (hidden · Wμ) + bμ,      logstd = S (hidden · Wσ) + bσ,

  where `(S T) (n, q) = Σ over the edges e with destination n of T (src e, q) · norm e`.
  The endpoints, the degrees and `norm` are computed by the same host operations in both programs, so they are the
  same terms. The kernel differs in three ways, none of which changes a value on the extended reals:

    * its matrix products run on the matrix unit into a zero accumulator, in blocks of rows; entry (r, j) is the
      same sum over k as the host's product;
    * it scales the gathered rows in a kernel, on arrays padded with zero rows to a multiple of the block height
      and cut back: row e < 1700000 of the result is row e of the unpadded product;
    * it computes the two heads at once with the weights side by side, `hidden · [Wμ | Wσ]`, and cuts the columns
      apart at the end. Column q of `S T` depends only on column q of `T`, and column q (or 32 + q) of
      `hidden · [Wμ | Wσ]` is column q of `hidden · Wμ` (of `hidden · Wσ`): the same sum, term by term.

  No law used here needs finiteness: sums are compared term by term, nothing is distributed or cancelled.
-/
import proofs.«104852_j41480794145130_2_alg».proof.Proof.KFold
import proofs.«104852_j41480794145130_2_alg».proof.Proof.ReadP
import proofs.«104852_j41480794145130_2_alg».proof.Proof.LibScatterSum
import proofs.«104852_j41480794145130_2_alg».proof.Proof.LibGatherRows
import proofs.«104852_j41480794145130_2_alg».proof.Proof.LibDense
import proofs.«104852_j41480794145130_2_alg».proof.Proof.LibColRow
import proofs.«104852_j41480794145130_2_alg».proof.Proof.LibLayoutCol
import Idealize.ShloMosaic.Lib.KernelVsHost
import Idealize.ShloMosaic.Lib.ValueLayout
import Idealize.ShloMosaic.Lib.IdealHost

set_option maxRecDepth 16384

noncomputable section

namespace Cert.Bridge

open Cert.KernelIdeal Cert.KernelIdeal.Gen Cert.KernelIdeal.Val
open Idealize.ShloMosaic Idealize.ShloMosaic.TcCoe Idealize.ShloMosaic.ValueIdx

variable (x : (⟨S100000x128, .f32⟩ : BufTy).Contents (Elt Ideal)) (ei : (⟨S2x1600000, .i32⟩ : BufTy).Contents (Elt Ideal))
  (W1 : (⟨S128x64, .f32⟩ : BufTy).Contents (Elt Ideal)) (b1 : (⟨S64, .f32⟩ : BufTy).Contents (Elt Ideal))
  (Wmu : (⟨S64x32, .f32⟩ : BufTy).Contents (Elt Ideal)) (bmu : (⟨S32, .f32⟩ : BufTy).Contents (Elt Ideal))
  (Wlog : (⟨S64x32, .f32⟩ : BufTy).Contents (Elt Ideal)) (blog : (⟨S32, .f32⟩ : BufTy).Contents (Elt Ideal))

/-! ## The stages the two programs share -/

/-- The start-index column at the sources is the reference's. -/
theorem srcCol_eq : startCol (ends0 ei) = Cert.ReferenceIdeal.ReadP.val_main_v36 ei := rfl
/-- The scatter-index column at the destinations is the reference's. -/
theorem dstCol_eq : broadcastInDim S1700000x1 ![0] bcast_S1700000_S1700000x1_0 (ends1 ei) = Cert.ReferenceIdeal.ReadP.val_main_v42 ei := rfl
/-- The per-edge normalisation is the reference's. -/
theorem norm_eq : edgeNorm ei = Cert.ReferenceIdeal.ReadP.val_main_v29 ei := rfl

/-! ## Layer 1 -/

/-- The reference's first product, entry by entry the sum over k. -/
theorem prod1_eq : Cert.ReferenceIdeal.ReadP.val_main_v30 x W1 = Cert.Dense.mm (R := 100000) (K := 128) (C := 64) x W1 := by
  funext j
  unfold Cert.ReferenceIdeal.ReadP.val_main_v30
  simp only [Host.dotGeneral]
  exact Cert.Dense.dotGeneral_eq _ rfl rfl Cert.ReferenceIdeal.ReadP.lhs_main_v30_0 Cert.ReferenceIdeal.ReadP.lhs_main_v30_1 Cert.ReferenceIdeal.ReadP.rhs_main_v30_0 Cert.ReferenceIdeal.ReadP.rhs_main_v30_1 none _ x W1 j

/-! ## The two programs' dimension records are the same records -/

theorem gather64_rec : Cert.ReferenceIdeal.gather_S100000x64_S1700000x1_S1700000x64_1_0_n_n_0_1_164 = gather_S100000x64_S1700000x1_S1700000x64_1_0_n_n_0_1_164 := rfl
theorem scatter64_rec : Cert.ReferenceIdeal.scatter_S100000x64_S1700000x1_S1700000x64_1_0_0_1 = scatter_S100000x64_S1700000x1_S1700000x64_1_0_0_1 := rfl

end Cert.Bridge

end
-- ==== Proof.Bridge1b.lean ====
/-
  Layer 1's messages: for an edge, the gathered row's entry times the edge's normalisation — in the kernel through
  zero padding, the scale region and the cut; in the reference through two broadcasts and a product.
-/
import proofs.«104852_j41480794145130_2_alg».proof.Proof.Bridge1a
import proofs.«104852_j41480794145130_2_alg».proof.Proof.ReadP
import proofs.«104852_j41480794145130_2_alg».proof.Proof.LibScatterSum
import proofs.«104852_j41480794145130_2_alg».proof.Proof.LibGatherRows
import proofs.«104852_j41480794145130_2_alg».proof.Proof.LibDense
import proofs.«104852_j41480794145130_2_alg».proof.Proof.LibColRow
import proofs.«104852_j41480794145130_2_alg».proof.Proof.LibLayoutCol
import Idealize.ShloMosaic.Lib.KernelVsHost
import Idealize.ShloMosaic.Lib.ValueLayout
import Idealize.ShloMosaic.Lib.IdealHost

set_option maxRecDepth 16384

noncomputable section

namespace Cert.Bridge

open Cert.KernelIdeal Cert.KernelIdeal.Gen Cert.KernelIdeal.Val
open Idealize.ShloMosaic Idealize.ShloMosaic.TcCoe Idealize.ShloMosaic.ValueIdx

variable (x : (⟨S100000x128, .f32⟩ : BufTy).Contents (Elt Ideal)) (ei : (⟨S2x1600000, .i32⟩ : BufTy).Contents (Elt Ideal))
  (W1 : (⟨S128x64, .f32⟩ : BufTy).Contents (Elt Ideal)) (b1 : (⟨S64, .f32⟩ : BufTy).Contents (Elt Ideal))
  (Wmu : (⟨S64x32, .f32⟩ : BufTy).Contents (Elt Ideal)) (bmu : (⟨S32, .f32⟩ : BufTy).Contents (Elt Ideal))
  (Wlog : (⟨S64x32, .f32⟩ : BufTy).Contents (Elt Ideal)) (blog : (⟨S32, .f32⟩ : BufTy).Contents (Elt Ideal))

/-- A message at an entry: padding with zero rows, scaling in the kernel and cutting the padding off again leave,
    for an edge `e`, the gathered row's entry times the edge's normalisation. -/
theorem msg_entry (T : FVec Ideal S100000x64 .f32) (e : Fin 1700000) (q : Fin 64) :
    extractStridedSlice S1700000x64 ![0, 0] (scaleRows (gatheredRows T (ends0 ei)) (normColumn ei)) slices_S1703936x64_S1700000x64_0_0 (ix2 e q)
      = Host.gather gather_S100000x64_S1700000x1_S1700000x64_1_0_n_n_0_1_164 T (startCol (ends0 ei)) (ix2 e q) * edgeNorm ei (ix1 e) := by
  have he : e.val < 1703936 := by have := e.isLt; omega
  refine (slice2_axis0_apply 0 _ _ e q ⟨e.val, he⟩ (Nat.zero_add _).symm).trans ?_
  show gatheredRows T (ends0 ei) (ix2 ⟨e.val, he⟩ q) * normColumn ei (ix2 ⟨e.val, he⟩ (0 : Fin 1)) = _
  refine congrArg₂ (fun a b : EReal => a * b) ?_ ?_
  · unfold gatheredRows
    refine pad_apply_of_inside _ _ _ _ _ _ _ (ix2 ⟨e.val, he⟩ q) (ix2 e q) (fun a => ?_)
    match a with
    | ⟨0, _⟩ => show e.val = 0 + e.val * (0 + 1); omega
    | ⟨1, _⟩ => show q.val = 0 + q.val * (0 + 1); omega
  · unfold normColumn
    refine (pad_apply_of_inside _ _ _ _ _ _ _ (ix2 ⟨e.val, he⟩ (0 : Fin 1)) (ix2 e (0 : Fin 1)) (fun a => ?_)).trans ?_
    · match a with
      | ⟨0, _⟩ => show e.val = 0 + e.val * (0 + 1); omega
      | ⟨1, _⟩ => show 0 = 0 + 0 * (0 + 1); omega
    · exact shapeCast_a_a1_apply _ _ e 0

/-- The reference's message at an entry. -/
theorem ref_msg_entry (T : FVec Ideal S100000x64 .f32) (e : Fin 1700000) (q : Fin 64) :
    mulf (Host.gather Cert.ReferenceIdeal.gather_S100000x64_S1700000x1_S1700000x64_1_0_n_n_0_1_164 T (Cert.ReferenceIdeal.ReadP.val_main_v36 ei)) (Cert.ReferenceIdeal.ReadP.val_main_v39 ei) (ix2 e q)
      = Host.gather gather_S100000x64_S1700000x1_S1700000x64_1_0_n_n_0_1_164 T (startCol (ends0 ei)) (ix2 e q) * edgeNorm ei (ix1 e) := by
  show Host.gather Cert.ReferenceIdeal.gather_S100000x64_S1700000x1_S1700000x64_1_0_n_n_0_1_164 T (Cert.ReferenceIdeal.ReadP.val_main_v36 ei) (ix2 e q) * Cert.ReferenceIdeal.ReadP.val_main_v39 ei (ix2 e q) = _
  rw [gather64_rec, ← srcCol_eq, norm_eq]
  refine congrArg (fun b : EReal => Host.gather gather_S100000x64_S1700000x1_S1700000x64_1_0_n_n_0_1_164 T (startCol (ends0 ei)) (ix2 e q) * b) ?_
  unfold Cert.ReferenceIdeal.ReadP.val_main_v39 Cert.ReferenceIdeal.ReadP.val_main_v38
  rw [broadcastInDim_a1_ab_apply, broadcastInDim_a_a1_apply]

/-- Layer 1's messages are the reference's. -/
theorem msg1_eq : extractStridedSlice S1700000x64 ![0, 0] (msg1 x ei W1) slices_S1703936x64_S1700000x64_0_0 = Cert.ReferenceIdeal.ReadP.val_main_v40 x ei W1 := by
  funext i
  obtain ⟨e, q, rfl⟩ : ∃ (e : Fin 1700000) (q : Fin 64), i = ix2 e q := ⟨i 0, i 1, eq_ix2 i⟩
  unfold msg1
  rw [msg_entry]
  unfold Cert.ReferenceIdeal.ReadP.val_main_v40 Cert.ReferenceIdeal.ReadP.val_main_v37
  rw [prod1_eq, ref_msg_entry]

end Cert.Bridge

end
-- ==== Proof.Bridge1.lean ====
/-
  Layer 1: the sums into the destinations and the hidden layer are the reference's.
-/
import proofs.«104852_j41480794145130_2_alg».proof.Proof.Bridge1b
import proofs.«104852_j41480794145130_2_alg».proof.Proof.ReadP
import proofs.«104852_j41480794145130_2_alg».proof.Proof.LibScatterSum
import proofs.«104852_j41480794145130_2_alg».proof.Proof.LibGatherRows
import proofs.«104852_j41480794145130_2_alg».proof.Proof.LibDense
import proofs.«104852_j41480794145130_2_alg».proof.Proof.LibColRow
import proofs.«104852_j41480794145130_2_alg».proof.Proof.LibLayoutCol
import Idealize.ShloMosaic.Lib.KernelVsHost
import Idealize.ShloMosaic.Lib.ValueLayout
import Idealize.ShloMosaic.Lib.IdealHost

set_option maxRecDepth 16384

noncomputable section

namespace Cert.Bridge

open Cert.KernelIdeal Cert.KernelIdeal.Gen Cert.KernelIdeal.Val
open Idealize.ShloMosaic Idealize.ShloMosaic.TcCoe Idealize.ShloMosaic.ValueIdx

variable (x : (⟨S100000x128, .f32⟩ : BufTy).Contents (Elt Ideal)) (ei : (⟨S2x1600000, .i32⟩ : BufTy).Contents (Elt Ideal))
  (W1 : (⟨S128x64, .f32⟩ : BufTy).Contents (Elt Ideal)) (b1 : (⟨S64, .f32⟩ : BufTy).Contents (Elt Ideal))
  (Wmu : (⟨S64x32, .f32⟩ : BufTy).Contents (Elt Ideal)) (bmu : (⟨S32, .f32⟩ : BufTy).Contents (Elt Ideal))
  (Wlog : (⟨S64x32, .f32⟩ : BufTy).Contents (Elt Ideal)) (blog : (⟨S32, .f32⟩ : BufTy).Contents (Elt Ideal))

/-- The zero array the sums start from is the reference's. -/
theorem zeros64_eq : broadcastInDim S100000x64 ![] bcast_S_S100000x64 (constant (F := Ideal) S_ .f32 0x00000000#32) = Cert.ReferenceIdeal.ReadP.val_main_v41 (F := Ideal) := rfl

/-- Layer 1's sums are the reference's. -/
theorem sum1_eq : summedRows (msg1 x ei W1) (ends1 ei) = Cert.ReferenceIdeal.ReadP.val_main_v43 x ei W1 := by
  unfold summedRows Cert.ReferenceIdeal.ReadP.val_main_v43
  rw [msg1_eq, dstCol_eq, ← scatter64_rec, zeros64_eq]

/-- The kernel's scalar zero and the host's zero constant are one extended real. -/
theorem zeroK_eq : Scalar.ofBits (F := Ideal) .f32 0x00000000#32 = Ideal.ofBits .f32 0x00000000#32 := rfl
theorem zeroR_eq (i : Cert.ReferenceIdeal.S100000x64.Idx) : Cert.ReferenceIdeal.ReadP.val_main_call1_v0 (F := Ideal) i = Ideal.ofBits .f32 0x00000000#32 := rfl

/-- The bias row at a column, in the two spellings. -/
theorem bias1_eq (n : Fin 100000) (q : Fin 64) :
    shapeCast S1x64 b1 shapeCasts_S64_S1x64 (ix2 (0 : Fin 1) q) = Cert.ReferenceIdeal.ReadP.val_main_v45 b1 (ix2 n q) := by
  unfold Cert.ReferenceIdeal.ReadP.val_main_v45 Cert.ReferenceIdeal.ReadP.val_main_v44
  rw [broadcastInDim_1b_ab_apply, broadcastInDim_b_1b_apply, shapeCast_a_1a_apply]

/-- The kernel's hidden layer at an entry. -/
theorem hiddenK_entry (n : Fin 100000) (q : Fin 64) :
    Val.hidden x ei W1 b1 (ix2 n q)
      = max (summedRows (msg1 x ei W1) (ends1 ei) (ix2 n q) + shapeCast S1x64 b1 shapeCasts_S64_S1x64 (ix2 (0 : Fin 1) q))
          (Scalar.ofBits (F := Ideal) .f32 0x00000000#32) := rfl

/-- A maximum of a sum of vectors with a third, at an index, on the extended reals. -/
theorem maximumf_addf_apply {s : Shape} (A B C : FVec Ideal s .f32) (i : s.Idx) :
    maximumf (addf A B) C i = max (A i + B i) (C i) := by
  show FloatOps.maximumf (F := Ideal) (φ := .f32) (FloatOps.addf (F := Ideal) (φ := .f32) (A i) (B i)) (C i) = _
  rw [Ideal.maximumf_def, Ideal.addf_def]

/-- The hidden layer is the reference's. -/
theorem hidden_eq : Val.hidden x ei W1 b1 = Cert.ReferenceIdeal.ReadP.val_main_v47 x ei W1 b1 := by
  funext i
  obtain ⟨n, q, rfl⟩ : ∃ (n : Fin 100000) (q : Fin 64), i = ix2 n q := ⟨i 0, i 1, eq_ix2 i⟩
  rw [hiddenK_entry, sum1_eq, bias1_eq b1 n q, zeroK_eq, ← zeroR_eq (ix2 n q)]
  unfold Cert.ReferenceIdeal.ReadP.val_main_v47 Cert.ReferenceIdeal.ReadP.val_main_v46
  rw [maximumf_addf_apply]

end Cert.Bridge

end
-- ==== Proof.Bridge2.lean ====
/-
  Layer 2: the two heads.

  The kernel multiplies the hidden layer by the two heads' weights side by side, sums the scaled gathered rows into
  their destinations once for all 64 columns, adds the two biases laid end to end, and cuts columns 0 … 31 and
  32 … 63 apart. Entry (n, q) of the left cut is

      0 + Σ over the edges e with destination n of (hidden · [Wμ | Wσ]) (src e, q) · norm e  +  [bμ | bσ] q,

  and (hidden · [Wμ | Wσ]) (r, q) = Σ over k of hidden (r, k) · [Wμ | Wσ] (k, q) = Σ over k of hidden (r, k) · Wμ (k, q),
  since column q < 32 of the joined weights is column q of Wμ; likewise [bμ | bσ] q = bμ q. That is the reference's
  mean head, sum by sum and term by term; the right cut is the log head with q replaced by 32 + q on the kernel's side.
-/
import proofs.«104852_j41480794145130_2_alg».proof.Proof.Bridge1

set_option maxRecDepth 16384

noncomputable section

namespace Cert.Bridge

open Cert.KernelIdeal Cert.KernelIdeal.Gen Cert.KernelIdeal.Val
open Idealize.ShloMosaic Idealize.ShloMosaic.TcCoe Idealize.ShloMosaic.ValueIdx

/-! ## The row gather and the row scatter of the printed records, at an entry -/

theorem gather64_entry (T : FVec Ideal S100000x64 .f32) (idx : (⟨S1700000x1, .i32⟩ : BufTy).Contents (Elt Ideal)) (e : Fin 1700000) (k : Fin 64) :
    Host.gather gather_S100000x64_S1700000x1_S1700000x64_1_0_n_n_0_1_164 T idx (ix2 e k)
      = T (ix2 ⟨clampRow 100000 (idx (ix2 e (0 : Fin 1))), clampRow_lt (by decide) _⟩ k) :=
  gather_rows_apply (N := 100000) (C := 64) (E := 1700000) (by decide) gather_S100000x64_S1700000x1_S1700000x64_1_0_n_n_0_1_164_wf T idx e k

theorem gather32_entry (T : FVec Ideal Cert.ReferenceIdeal.S100000x32 .f32) (idx : (⟨S1700000x1, .i32⟩ : BufTy).Contents (Elt Ideal)) (e : Fin 1700000) (k : Fin 32) :
    Host.gather Cert.ReferenceIdeal.gather_S100000x32_S1700000x1_S1700000x32_1_0_n_n_0_1_132 T idx (ix2 e k)
      = T (ix2 ⟨clampRow 100000 (idx (ix2 e (0 : Fin 1))), clampRow_lt (by decide) _⟩ k) :=
  gather_rows_apply (N := 100000) (C := 32) (E := 1700000) (by decide) Cert.ReferenceIdeal.Gen.gather_S100000x32_S1700000x1_S1700000x32_1_0_n_n_0_1_132_wf T idx e k

theorem scatter64_entry (z : FVec Ideal S100000x64 .f32) (idx : (⟨S1700000x1, .i32⟩ : BufTy).Contents (Elt Ideal)) (u : FVec Ideal S1700000x64 .f32)
    (n : Fin 100000) (k : Fin 64) :
    Host.scatterAdd scatter_S100000x64_S1700000x1_S1700000x64_1_0_0_1 z idx u (ix2 n k)
      = z (ix2 n k) + ∑ e : Fin 1700000, if (idx (ix2 e (0 : Fin 1))).toInt = (n.val : Int) then u (ix2 e k) else 0 :=
  Cert.ScatterSum.scatterAdd_mat_apply (N := 100000) (C := 64) (E := 1700000) scatter_S100000x64_S1700000x1_S1700000x64_1_0_0_1_wf idx z u n k

theorem scatter32_entry (z : FVec Ideal Cert.ReferenceIdeal.S100000x32 .f32) (idx : (⟨S1700000x1, .i32⟩ : BufTy).Contents (Elt Ideal)) (u : FVec Ideal Cert.ReferenceIdeal.S1700000x32 .f32)
    (n : Fin 100000) (k : Fin 32) :
    Host.scatterAdd Cert.ReferenceIdeal.scatter_S100000x32_S1700000x1_S1700000x32_1_0_0_1 z idx u (ix2 n k)
      = z (ix2 n k) + ∑ e : Fin 1700000, if (idx (ix2 e (0 : Fin 1))).toInt = (n.val : Int) then u (ix2 e k) else 0 :=
  Cert.ScatterSum.scatterAdd_mat_apply (N := 100000) (C := 32) (E := 1700000) Cert.ReferenceIdeal.Gen.scatter_S100000x32_S1700000x1_S1700000x32_1_0_0_1_wf idx z u n k

/-- The host's product of the hidden layer with one head's weights, entry by entry the sum over k. -/
theorem prod2_eq (H : FVec Ideal S100000x64 .f32) (Wh : FVec Ideal S64x32 .f32) :
    Host.dotGeneral Cert.ReferenceIdeal.dot_S100000x64_S64x32_S100000x32_1_0_0_1_n_n none H Wh = Cert.Dense.mm (R := 100000) (K := 64) (C := 32) H Wh := by
  funext j
  simp only [Host.dotGeneral]
  exact Cert.Dense.dotGeneral_eq _ rfl rfl Cert.ReferenceIdeal.ReadP.lhs_main_v48_0 Cert.ReferenceIdeal.ReadP.lhs_main_v48_1 Cert.ReferenceIdeal.ReadP.rhs_main_v48_0 Cert.ReferenceIdeal.ReadP.rhs_main_v48_1 none _ H Wh j

variable (x : (⟨S100000x128, .f32⟩ : BufTy).Contents (Elt Ideal)) (ei : (⟨S2x1600000, .i32⟩ : BufTy).Contents (Elt Ideal))
  (W1 : (⟨S128x64, .f32⟩ : BufTy).Contents (Elt Ideal)) (b1 : (⟨S64, .f32⟩ : BufTy).Contents (Elt Ideal))
  (Wmu : (⟨S64x32, .f32⟩ : BufTy).Contents (Elt Ideal)) (bmu : (⟨S32, .f32⟩ : BufTy).Contents (Elt Ideal))
  (Wlog : (⟨S64x32, .f32⟩ : BufTy).Contents (Elt Ideal)) (blog : (⟨S32, .f32⟩ : BufTy).Contents (Elt Ideal))

/-- Layer 2 gathers at the same start-index column and sums at the same scatter-index column as layer 1. -/
theorem srcCol2_eq : Cert.ReferenceIdeal.ReadP.val_main_v54 ei = startCol (ends0 ei) := rfl
theorem dstCol2_eq : Cert.ReferenceIdeal.ReadP.val_main_v60 ei = broadcastInDim S1700000x1 ![0] bcast_S1700000_S1700000x1_0 (ends1 ei) := rfl
/-- The zero arrays the sums start from, at an entry. -/
theorem zero64_entry (i : S100000x64.Idx) :
    broadcastInDim S100000x64 ![] bcast_S_S100000x64 (constant (F := Ideal) S_ .f32 0x00000000#32) i = FloatOps.ofBits (F := Ideal) .f32 0x00000000#32 := rfl
theorem zero32_entry (i : Cert.ReferenceIdeal.S100000x32.Idx) :
    broadcastInDim Cert.ReferenceIdeal.S100000x32 ![] Cert.ReferenceIdeal.Gen.bcast_S_S100000x32 (constant (F := Ideal) Cert.ReferenceIdeal.S_ .f32 0x00000000#32) i = FloatOps.ofBits (F := Ideal) .f32 0x00000000#32 := rfl

/-- A sum and a product of two vectors at an index, on the extended reals. -/
theorem addf_at {s : Shape} (A B : FVec Ideal s .f32) (i : s.Idx) : addf A B i = A i + B i := by
  show FloatOps.addf (F := Ideal) (φ := .f32) (A i) (B i) = _
  rw [Ideal.addf_def]
theorem mulf_at {s : Shape} (A B : FVec Ideal s .f32) (i : s.Idx) : mulf A B i = A i * B i := by
  show FloatOps.mulf (F := Ideal) (φ := .f32) (A i) (B i) = _
  rw [Ideal.mulf_def]

/-- One head of the reference, as the composition of its host operations on the shared stages. -/
def refHead (Wh : FVec Ideal S64x32 .f32) (bh : FVec Ideal S32 .f32) : FVec Ideal Cert.ReferenceIdeal.S100000x32 .f32 :=
  addf (Host.scatterAdd Cert.ReferenceIdeal.scatter_S100000x32_S1700000x1_S1700000x32_1_0_0_1
      (broadcastInDim Cert.ReferenceIdeal.S100000x32 ![] Cert.ReferenceIdeal.Gen.bcast_S_S100000x32 (constant Cert.ReferenceIdeal.S_ .f32 0x00000000#32))
      (Cert.ReferenceIdeal.ReadP.val_main_v60 ei)
      (mulf (Host.gather Cert.ReferenceIdeal.gather_S100000x32_S1700000x1_S1700000x32_1_0_n_n_0_1_132
          (Host.dotGeneral (φ₁ := .f32) (φ₂ := .f32) Cert.ReferenceIdeal.dot_S100000x64_S64x32_S100000x32_1_0_0_1_n_n none (Cert.ReferenceIdeal.ReadP.val_main_v47 x ei W1 b1) Wh) (Cert.ReferenceIdeal.ReadP.val_main_v54 ei))
        (Cert.ReferenceIdeal.ReadP.val_main_v57 ei)))
    (broadcastInDim Cert.ReferenceIdeal.S100000x32 ![0, 1] Cert.ReferenceIdeal.Gen.bcast_S1x32_S100000x32_0_1 (broadcastInDim Cert.ReferenceIdeal.S1x32 ![1] Cert.ReferenceIdeal.Gen.bcast_S32_S1x32_1 bh))

/-- THE COLUMN LAW: the cut of the kernel's joined heads from column `o` is the reference's head with weights `Wh`
    and bias `bh`, whenever columns `o … o + 31` of the joined weights and biases are `Wh` and `bh`. -/
theorem head_eq (o : Nat) (ho : o + 32 ≤ 64) (Wh : FVec Ideal S64x32 .f32) (bh : FVec Ideal S32 .f32)
    (hs : S100000x64.Slices ![0, o] S100000x32)
    (hW : ∀ (k' : Fin 64) (q : Fin 32) (hk : o + q.val < 64), headW Wmu Wlog (ix2 k' ⟨o + q.val, hk⟩) = Wh (ix2 k' q))
    (hb : ∀ (q : Fin 32) (hk : o + q.val < 64),
      concatenate S64 0 [⟨S32, bmu⟩, ⟨S32, blog⟩] concatenates_S32_S32_S64_d0 (ix1 ⟨o + q.val, hk⟩) = bh (ix1 q)) :
    extractStridedSlice S100000x32 ![0, o] (heads x ei W1 b1 Wmu bmu Wlog blog) hs = refHead x ei W1 b1 Wh bh := by
  funext i
  obtain ⟨n, q, rfl⟩ : ∃ (n : Fin 100000) (q : Fin 32), i = ix2 n q := ⟨i 0, i 1, eq_ix2 i⟩
  have hk : o + q.val < 64 := by have := q.isLt; omega
  refine (slice2_axis1_apply o _ hs n q ⟨o + q.val, hk⟩ rfl).trans ?_
  -- the kernel's entry: zero, plus the sum over the edges into n, plus the bias
  have hK : heads x ei W1 b1 Wmu bmu Wlog blog (ix2 n ⟨o + q.val, hk⟩)
      = (FloatOps.ofBits (F := Ideal) .f32 0x00000000#32
          + ∑ e : Fin 1700000, if ((broadcastInDim S1700000x1 ![0] bcast_S1700000_S1700000x1_0 (ends1 ei)) (ix2 e (0 : Fin 1))).toInt = (n.val : Int) then
              Cert.Dense.mm (R := 100000) (K := 64) (C := 64) (Val.hidden x ei W1 b1) (headW Wmu Wlog)
                (ix2 ⟨clampRow 100000 (startCol (ends0 ei) (ix2 e (0 : Fin 1))), clampRow_lt (by decide) _⟩ ⟨o + q.val, hk⟩) * edgeNorm ei (ix1 e)
            else 0)
        + bh (ix1 q) := by
    unfold heads
    show summedRows (msg2 x ei W1 b1 Wmu Wlog) (ends1 ei) (ix2 n ⟨o + q.val, hk⟩)
        + shapeCast S1x64 (concatenate S64 0 [⟨S32, bmu⟩, ⟨S32, blog⟩] concatenates_S32_S32_S64_d0) shapeCasts_S64_S1x64 (ix2 (0 : Fin 1) ⟨o + q.val, hk⟩) = _
    rw [shapeCast_a_1a_apply, hb q hk]
    refine congrArg (fun a : EReal => a + bh (ix1 q)) ?_
    unfold summedRows
    rw [scatter64_entry, zero64_entry]
    refine congrArg (fun s : EReal => FloatOps.ofBits (F := Ideal) .f32 0x00000000#32 + s) (Finset.sum_congr rfl fun e _ => ?_)
    unfold msg2
    rw [msg_entry, gather64_entry]
  -- the reference's entry, in the same form
  have hR : refHead x ei W1 b1 Wh bh (ix2 n q)
      = (FloatOps.ofBits (F := Ideal) .f32 0x00000000#32
          + ∑ e : Fin 1700000, if ((broadcastInDim S1700000x1 ![0] bcast_S1700000_S1700000x1_0 (ends1 ei)) (ix2 e (0 : Fin 1))).toInt = (n.val : Int) then
              Cert.Dense.mm (R := 100000) (K := 64) (C := 32) (Val.hidden x ei W1 b1) Wh
                (ix2 ⟨clampRow 100000 (startCol (ends0 ei) (ix2 e (0 : Fin 1))), clampRow_lt (by decide) _⟩ q) * edgeNorm ei (ix1 e)
            else 0)
        + bh (ix1 q) := by
    unfold refHead
    rw [addf_at, broadcastInDim_1b_ab_apply, broadcastInDim_b_1b_apply]
    refine congrArg (fun a : EReal => a + bh (ix1 q)) ?_
    rw [scatter32_entry, zero32_entry, dstCol2_eq, srcCol2_eq]
    refine congrArg (fun s : EReal => FloatOps.ofBits (F := Ideal) .f32 0x00000000#32 + s) (Finset.sum_congr rfl fun e _ => ?_)
    rw [mulf_at, gather32_entry, prod2_eq, ← hidden_eq]
    have hn : Cert.ReferenceIdeal.ReadP.val_main_v57 ei (ix2 e q) = edgeNorm ei (ix1 e) := by
      unfold Cert.ReferenceIdeal.ReadP.val_main_v57 Cert.ReferenceIdeal.ReadP.val_main_v56
      rw [broadcastInDim_a1_ab_apply, broadcastInDim_a_a1_apply, norm_eq]
    rw [hn]
  rw [hK, hR]
  refine congrArg (fun a : EReal => a + bh (ix1 q)) (congrArg (fun s : EReal => FloatOps.ofBits (F := Ideal) .f32 0x00000000#32 + s)
    (Finset.sum_congr rfl fun e _ => ?_))
  rw [Cert.Dense.mm_congr (R := 100000) (R' := 100000) (K := 64) (C := 64) (C' := 32) (X := Val.hidden x ei W1 b1) (X' := Val.hidden x ei W1 b1)
    (W := headW Wmu Wlog) (W' := Wh)
    (ix2 ⟨clampRow 100000 (startCol (ends0 ei) (ix2 e (0 : Fin 1))), clampRow_lt (by decide) _⟩ ⟨o + q.val, hk⟩)
    (ix2 ⟨clampRow 100000 (startCol (ends0 ei) (ix2 e (0 : Fin 1))), clampRow_lt (by decide) _⟩ q)
    (fun _ => rfl) (fun k' => hW k' q hk)]

/-- The reference's mean head is that composition. -/
theorem refHead_mean : refHead x ei W1 b1 Wmu bmu = Cert.ReferenceIdeal.ReadP.val_main_v64 x ei W1 b1 Wmu bmu := by
  unfold refHead Cert.ReferenceIdeal.ReadP.val_main_v64 Cert.ReferenceIdeal.ReadP.val_main_v61 Cert.ReferenceIdeal.ReadP.val_main_v58 Cert.ReferenceIdeal.ReadP.val_main_v55 Cert.ReferenceIdeal.ReadP.val_main_v48 Cert.ReferenceIdeal.ReadP.val_main_v63
    Cert.ReferenceIdeal.ReadP.val_main_v62 Cert.ReferenceIdeal.ReadP.val_main_v59 Cert.ReferenceIdeal.ReadP.val_main_cst_11
  rfl

/-- The reference's log head is that composition (its index and normalisation stages are layer 1's, recomputed). -/
theorem refHead_logstd : refHead x ei W1 b1 Wlog blog = Cert.ReferenceIdeal.ReadP.val_main_v81 x ei W1 b1 Wlog blog := by
  have e1 : Cert.ReferenceIdeal.ReadP.val_main_v77 ei = Cert.ReferenceIdeal.ReadP.val_main_v60 ei := rfl
  have e2 : Cert.ReferenceIdeal.ReadP.val_main_v74 ei = Cert.ReferenceIdeal.ReadP.val_main_v57 ei := rfl
  have e3 : Cert.ReferenceIdeal.ReadP.val_main_v71 ei = Cert.ReferenceIdeal.ReadP.val_main_v54 ei := rfl
  unfold refHead Cert.ReferenceIdeal.ReadP.val_main_v81 Cert.ReferenceIdeal.ReadP.val_main_v78 Cert.ReferenceIdeal.ReadP.val_main_v75 Cert.ReferenceIdeal.ReadP.val_main_v72 Cert.ReferenceIdeal.ReadP.val_main_v65 Cert.ReferenceIdeal.ReadP.val_main_v80
    Cert.ReferenceIdeal.ReadP.val_main_v79 Cert.ReferenceIdeal.ReadP.val_main_v76 Cert.ReferenceIdeal.ReadP.val_main_cst_14
  rw [e1, e2, e3]

/-- The mean head. -/
theorem mean_eq : extractStridedSlice S100000x32 ![0, 0] (heads x ei W1 b1 Wmu bmu Wlog blog) slices_S100000x64_S100000x32_0_0
    = Cert.ReferenceIdeal.ReadP.val_main_v64 x ei W1 b1 Wmu bmu := by
  refine (head_eq x ei W1 b1 Wmu bmu Wlog blog 0 (by decide) Wmu bmu slices_S100000x64_S100000x32_0_0 (fun k' q hk => ?_) (fun q hk => ?_)).trans (refHead_mean x ei W1 b1 Wmu bmu)
  · unfold headW
    refine concatenate_pair_apply_left (t := S64x64) (s₁ := S64x32) (s₂ := S64x32) (1 : Fin 2) Wmu Wlog concatenates_S64x32_S64x32_S64x64_d1
      (ix2 k' ⟨0 + q.val, hk⟩) rfl (ix2 k' q) (fun b => ?_)
    match b with
    | ⟨0, _⟩ => rfl
    | ⟨1, _⟩ => show q.val = 0 + q.val; omega
  · refine concatenate_pair_apply_left (t := S64) (s₁ := S32) (s₂ := S32) (0 : Fin 1) bmu blog concatenates_S32_S32_S64_d0
      (ix1 ⟨0 + q.val, hk⟩) rfl (ix1 q) (fun b => ?_)
    match b with
    | ⟨0, _⟩ => show q.val = 0 + q.val; omega

/-- The log head. -/
theorem logstd_eq : extractStridedSlice S100000x32 ![0, 32] (heads x ei W1 b1 Wmu bmu Wlog blog) slices_S100000x64_S100000x32_0_32
    = Cert.ReferenceIdeal.ReadP.val_main_v81 x ei W1 b1 Wlog blog := by
  refine (head_eq x ei W1 b1 Wmu bmu Wlog blog 32 (by decide) Wlog blog slices_S100000x64_S100000x32_0_32 (fun k' q hk => ?_) (fun q hk => ?_)).trans (refHead_logstd x ei W1 b1 Wlog blog)
  · unfold headW
    refine concatenate_pair_apply_right (t := S64x64) (s₁ := S64x32) (s₂ := S64x32) (1 : Fin 2) Wmu Wlog concatenates_S64x32_S64x32_S64x64_d1
      (ix2 k' ⟨32 + q.val, hk⟩) rfl rfl (ix2 k' q) (fun b hb => ?_) ?_
    · match b with
      | ⟨0, _⟩ => rfl
      | ⟨1, _⟩ => exact absurd rfl hb
    · show q.val + 32 = 32 + q.val; omega
  · refine concatenate_pair_apply_right (t := S64) (s₁ := S32) (s₂ := S32) (0 : Fin 1) bmu blog concatenates_S32_S32_S64_d0
      (ix1 ⟨32 + q.val, hk⟩) rfl rfl (ix1 q) (fun b hb => ?_) ?_
    · match b with
      | ⟨0, _⟩ => exact absurd rfl hb
    · show q.val + 32 = 32 + q.val; omega

end Cert.Bridge

end
-- ==== Proof.lean ====
/-
  The certificate of a two-layer graph convolution encoder with a mean head and a log head
  (100000 nodes, 1600000 edges, 128 → 64 → 32 + 32 features).

  The kernel runs the dense and the row-wise parts in six kernel regions — two matrix products, two row scalings,
  two bias additions (the first with a maximum with zero) — and leaves the gathers along the edges and the sums
  into the destination nodes to host operations; the reference is the same network in host operations only.

  * The three frames: the two kernel programs' are generated; the reference's is its generated run with the results
    dropped.
  * The idealisation rewrote nothing, so `preserves` is trivial.
  * The algebraic claim: the kernel's run is read with every buffer named (Proof/FrameP.lean, Proof/KRun.lean), the
    fold of its host stretches and regions is read boundary by boundary into two functions of the arguments
    (Proof/Keep.lean, Proof/KHost.lean, the three Proof/Reg*.lean, Proof/KFold.lean), and those functions are the
    reference's stages (Proof/Bridge1.lean, Proof/Bridge2.lean): the same sums, term by term, on the extended reals.
    The precondition is never opened: no law used needs finiteness.
-/
import proofs.«104852_j41480794145130_2_alg».proof.Defs
import proofs.«104852_j41480794145130_2_alg».proof.Proof.Gen.Kernel
import proofs.«104852_j41480794145130_2_alg».proof.Proof.Gen.Kernel.Skeleton
import proofs.«104852_j41480794145130_2_alg».proof.Proof.Gen.Kernel.Launch
import proofs.«104852_j41480794145130_2_alg».proof.Proof.Gen.Kernel.Points
import proofs.«104852_j41480794145130_2_alg».proof.Proof.Gen.Kernel.Frame
import proofs.«104852_j41480794145130_2_alg».proof.Proof.Gen.KernelIdeal
import proofs.«104852_j41480794145130_2_alg».proof.Proof.Gen.KernelIdeal.Skeleton
import proofs.«104852_j41480794145130_2_alg».proof.Proof.Gen.KernelIdeal.Launch
import proofs.«104852_j41480794145130_2_alg».proof.Proof.Gen.KernelIdeal.Points
import proofs.«104852_j41480794145130_2_alg».proof.Proof.Gen.KernelIdeal.Frame
import proofs.«104852_j41480794145130_2_alg».proof.Proof.Gen.ReferenceIdeal
import proofs.«104852_j41480794145130_2_alg».proof.Proof.Gen.Pre_finite_inputs
import proofs.«104852_j41480794145130_2_alg».proof.Proof.KRun
import proofs.«104852_j41480794145130_2_alg».proof.Proof.KFold
import proofs.«104852_j41480794145130_2_alg».proof.Proof.Bridge2
import Idealize.ShloMosaic.Adequacy
import Idealize.ShloMosaic.Init

noncomputable section

namespace Cert.Proof

open Idealize.ShloMosaic Idealize.ShloMosaic.TcCoe Idealize.SL.Sem

theorem frame_p [Cert.Kernel.Facts] [Cert.Pre_finite_inputs.Facts] : Cert.frame_Kernel := fun m ρ _ => Cert.Kernel.Gen.frame m ρ
theorem frame_pi [Cert.KernelIdeal.Facts] [Cert.Pre_finite_inputs.Facts] : Cert.frame_KernelIdeal := fun m ρ _ => Cert.KernelIdeal.Gen.frame m ρ
theorem frame_ri [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.ValueP.run (F := Ideal) m ρ)

/-- At the exact instance, from memories that agree on the arguments, the kernel's two result buffers end at the two
    cuts of its joined heads (the fold, read) and the reference's at its two heads (its run), and those are equal
    arrays of extended reals. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => extractStridedSlice Cert.KernelIdeal.S100000x32 ![0, 0] (Cert.KernelIdeal.Val.heads (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) Cert.KernelIdeal.Gen.slices_S100000x64_S100000x32_0_0,
    fun c => extractStridedSlice Cert.KernelIdeal.S100000x32 ![0, 32] (Cert.KernelIdeal.Val.heads (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) Cert.KernelIdeal.Gen.slices_S100000x64_S100000x32_0_32, ?_, ?_⟩
  · exact (θ_run Cert.KernelIdeal.defs _ _).mono (fun r h c =>
      ⟨(Cert.KernelIdeal.Val.res0 m ρ r h c).trans (Cert.KernelIdeal.Val.result0 m ρ c),
       (Cert.KernelIdeal.Val.res1 m ρ r h c).trans (Cert.KernelIdeal.Val.result1 m ρ c),
       Cert.KernelIdeal.Val.kept m ρ r h c⟩) (Cert.KernelIdeal.GenP.run_named m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · rw [Cert.ReferenceIdeal.ReadP.val_main_v64_eq, (hagree c).1, (hagree c).2.1, (hagree c).2.2.1, (hagree c).2.2.2.1,
        (hagree c).2.2.2.2.1, (hagree c).2.2.2.2.2.1]
      exact (Cert.Bridge.mean_eq _ _ _ _ _ _ _ _).symm
    · rw [Cert.ReferenceIdeal.ReadP.val_main_v81_eq, (hagree c).1, (hagree c).2.1, (hagree c).2.2.1, (hagree c).2.2.2.1,
        (hagree c).2.2.2.2.2.2.1, (hagree c).2.2.2.2.2.2.2]
      exact (Cert.Bridge.logstd_eq _ _ _ _ _ _ _ _).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
